-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S128x1024 : Shape := ⟨2, ![128, 1024]⟩
abbrev S1024 : Shape := ⟨1, ![1024]⟩
abbrev S_ : Shape := ⟨0, ![]⟩
abbrev S64 : Shape := ⟨1, ![64]⟩
abbrev S1024x1 : Shape := ⟨2, ![1024, 1]⟩
abbrev S1x64 : Shape := ⟨2, ![1, 64]⟩
abbrev S1024x64 : Shape := ⟨2, ![1024, 64]⟩
abbrev S1024x128 : Shape := ⟨2, ![1024, 128]⟩
abbrev S512x128 : Shape := ⟨2, ![512, 128]⟩
abbrev S64x1024 : Shape := ⟨2, ![64, 1024]⟩
abbrev S128x128 : Shape := ⟨2, ![128, 128]⟩
abbrev S128x1x1024 : Shape := ⟨3, ![128, 1, 1024]⟩
abbrev S1x64x1024 : Shape := ⟨3, ![1, 64, 1024]⟩
abbrev S128x64x1024 : Shape := ⟨3, ![128, 64, 1024]⟩
abbrev S8192x1024 : Shape := ⟨2, ![8192, 1024]⟩
abbrev S8192x128 : Shape := ⟨2, ![8192, 128]⟩
abbrev S128x64x128 : Shape := ⟨3, ![128, 64, 128]⟩
abbrev S512x64 : Shape := ⟨2, ![512, 64]⟩
abbrev S512x1088 : Shape := ⟨2, ![512, 1088]⟩

abbrev nBuf : Space → Nat
  | .hbm => 37
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S1024x1024, .bf16⟩
  | .hbm, ⟨4, _⟩ => ⟨S512x1024, .bf16⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S64, .i32⟩
  | .hbm, ⟨25, _⟩ => ⟨S1024x1, .i32⟩
  | .hbm, ⟨26, _⟩ => ⟨S1x64, .i32⟩
  | .hbm, ⟨27, _⟩ => ⟨S1024x64, .i32⟩
  | .hbm, ⟨28, _⟩ => ⟨S1024x64, .i32⟩
  | .hbm, ⟨29, _⟩ => ⟨S1024x64, .i1⟩
  | .hbm, ⟨30, _⟩ => ⟨S1024x64, .bf16⟩
  | .hbm, ⟨31, _⟩ => ⟨S_, .bf16⟩
  | .hbm, ⟨32, _⟩ => ⟨S1024x64, .bf16⟩
  | .hbm, ⟨33, _⟩ => ⟨S1024x128, .bf16⟩
  | .hbm, ⟨34, _⟩ => ⟨S512x128, .f32⟩
  | .hbm, ⟨35, _⟩ => ⟨S512x64, .f32⟩
  | .hbm, ⟨36, _⟩ => ⟨S512x1088, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S64x1024, .bf16⟩
  | .local _ .vmem, ⟨8, _⟩ => ⟨S64x1024, .bf16⟩
  | .local _ .vmem, ⟨9, _⟩ => ⟨S1024x128, .bf16⟩
  | .local _ .vmem, ⟨10, _⟩ => ⟨S128x128, .f32⟩
  | .local _ .vmem, ⟨11, _⟩ => ⟨S128x128, .f32⟩
  | .local _ .vmem, ⟨12, _⟩ => ⟨S128x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_12 : BitVec 32 := 0#32
  let v29 : BitVec 1 := Scalar.cmpi .ne v28 c0_i32_12
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1024x64x16_S1024x1024 : S1024x64x16.ShapeCasts S1024x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S128x1024_S128x1024_0_0 : (Rect.unit (s := S128x1024) ![0, 0] S128x1024.size inb_S128x1024_S128x1024_0_0).PackedRows (EltTy.packing .bf16)
  bcast_S_S1024 : S_.BroadcastsInDim S1024 (![] : Fin 0 → Fin S1024.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x1024_S128x1024 : S128x1024.ShapeCasts S128x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S128x1024_S128x1x1024 : S128x1024.ShapeCasts S128x1x1024
  shapeCasts_S64x1024_S1x64x1024 : S64x1024.ShapeCasts S1x64x1024
  broadcasts_S128x1x1024_S128x64x1024 : S128x1x1024.Broadcasts S128x64x1024
  broadcasts_S1x64x1024_S128x64x1024 : S1x64x1024.Broadcasts S128x64x1024
  shapeCasts_S128x64x1024_S8192x1024 : S128x64x1024.ShapeCasts S8192x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S128x64x128 : S8192x128.ShapeCasts S128x64x128
  reduces_S128x64x128_S128x128 : S128x64x128.Reduces [1] S128x128
  slices_S512x128_S512x64_0_0 : S512x128.Slices ![0, 0] S512x64
  concatenates_S512x1024_S512x64_S512x1088_d1 : Shape.Concatenates [S512x1024, S512x64] S512x1088 1
  dot_S128x1024_S1024x1024_S128x1024_1_0_0_1_n_n_wf : DotDims.WF S128x1024 S1024x1024 S128x1024 [1] [0] [0] [1] [] []
  dot_S8192x1024_S1024x128_S8192x128_1_0_0_1_n_n_wf : DotDims.WF S8192x1024 S1024x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .bf16 = 32 ∨ (Rect.block (s := S512x1024) S128x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .bf16 = 32 ∨ (Rect.block (s := S512x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S512x1024.size a
  hwx1_1 : ∀ i : grid1.Coords, EltTy.bits .bf16 = 32 ∨ (Rect.block (s := S512x1024) S64x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .bf16 = 32 ∨ (Rect.block (s := S1024x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S512x128.size a
  hwx1_3 : ∀ i : grid1.Coords, EltTy.bits .f32 = 32 ∨ (Rect.block (s := S512x128) S128x128.size (cc1_transform_3 i) (hinb1_3 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.K.R0.lean ====
/-
  The first kernel region (the projection), at the buffer contents `V` the region is entered with.

  The grid has four points; point `t` takes rows `128 t … 128 t + 127` of the first operand (window 0), the whole
  second operand (window 1, fetched once) and writes rows `128 t …` of the result (window 2). The body loads the
  two input blocks, forms one value from them (the product of the block with the whole weight, as the skeleton's
  payload) and stores it over the whole output block; it also loads the output block first, a value it never uses.
  So after the body at a point the output's staging buffer holds that payload of the two input blocks, the input
  buffers are as they were, and nothing is kept from point to point.
-/
import proofs.«177701_j45286135169752_2_alg».proof.Proof.Gen.Kernel.Launch
import proofs.«177701_j45286135169752_2_alg».proof.Proof.Gen.Kernel.Skeleton
import proofs.«177701_j45286135169752_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output buffer -/

abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The output's staging buffer after the body, from the two input blocks: its one store as a piece. -/
def out0_2 (x0 : Vec F S128x1024 .f32) (x1 : Vec F S1024x1024 .bf16) : Vec F S128x1024 .bf16 :=
  View.canon [⟨r0_a, k0_pay1 (View.ld x0 r0_a) (View.ld x1 r0_b)⟩]

/-- The one store covers the buffer. -/
theorem cover0_2 (p0 : Vec F S128x1024 .bf16) (y : S128x1024.Idx) :
    ∃ pc ∈ ([⟨r0_a, p0⟩] : List (View.Piece (Elt F) S128x1024 .bf16)), y ∈ pc.1.set :=
  View.cover_of_tiled [⟨r0_a, p0⟩] S128x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S128x1024 .f32) (harg1 : arg1.IsWhole)
    (arg2 : Memref sig .tc .vmem S1024x1024 .bf16) (harg2 : arg2.IsWhole) (arg3 : Memref sig .tc .vmem S128x1024 .bf16) (harg3 : arg3.IsWhole)
    (x0 : Vec F S128x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- After the body at point `t`: each input's buffer at its block, the output's at `out0_2` of the input blocks;
    the invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second kernel region (pairwise distances, exponentials, row sums), at the buffer contents `V` the region is
  entered with.

  The grid is 4 × 8, point `t` having coordinates `(t / 8, t % 8)`. Windows 0 and 1 both read the projection: window 0
  the block of 128 rows `t / 8` (fetched when `t % 8 = 0`), window 1 the block of 64 rows `t % 8` (fetched at every
  point); window 2 is the whole 0/1 group matrix (fetched once); window 3 is the block of 128 rows `t / 8` of the
  result, written back when `t % 8 = 7`. A scratch buffer of 128 × 128 is carried from point to point.

  The body has three courses, by `t % 8`: at `0` it stores zero into the scratch, then adds the point's partial sums
  to it; at `1 … 6` it only adds; at `7` it adds and then copies the scratch into the output block. So the scratch
  after point `t` is a recursion over the points (`accAt`), restarted wherever `t % 8 = 0`; the output's staging buffer
  is touched only where `t % 8 = 7`, and elsewhere the window is idle: the body hands the buffer back as found.
-/
import proofs.«177701_j45286135169752_2_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (where it is not fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "The second grid coordinate is zero": the condition under which the body clears the scratch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The second grid coordinate is seven": the condition under which the body copies the scratch out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a row of eight the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S128x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
/-- The scratch the body carries between points, and the views through which its and the output's contents are stated. -/
abbrev scM1 : Memref sig .tc .vmem S128x128 .f32 := Memref.whole cc1_scratch0
abbrev VS1 : View sig .tc .vmem S128x128 .f32 := scM1.view
abbrev VO1 : View sig .tc .vmem S128x128 .f32 := (Memref.whole cc1_stg3_0 : Memref sig .tc .vmem S128x128 .f32).view

/-! ## The body's three courses -/

set_option maxHeartbeats 2000000 in
/-- The first point of a row of eight: the scratch, found at anything, is cleared and the partial sums added; the
    output's buffer is handed back as found. The pieces the scratch ends with are what the run finds. -/
noncomputable def kernelRun1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i)
    (x0 : Vec F S128x1024 .bf16) (x1 : Vec F S64x1024 .bf16) (x2 : Vec F S1024x128 .bf16) :
    { LS : List (View.Piece (Elt F) S128x128 .f32) //
      ∀ (xi : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, fun xi E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A middle point: the partial sums are added to the scratch, found at `xs`; the output's buffer is handed back as found. -/
noncomputable def kernelRun1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i)
    (x0 : Vec F S128x1024 .bf16) (x1 : Vec F S64x1024 .bf16) (x2 : Vec F S1024x128 .bf16) (xs : Vec F S128x128 .f32) :
    { LS : List (View.Piece (Elt F) S128x128 .f32) //
      ∀ (xi : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, fun xi E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The last point of a row of eight: the partial sums are added to the scratch, found at `xs`, and the scratch is
    copied over the output's buffer, found at anything. -/
noncomputable def kernelRun1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i)
    (x0 : Vec F S128x1024 .bf16) (x1 : Vec F S64x1024 .bf16) (x2 : Vec F S1024x128 .bf16) (xs : Vec F S128x128 .f32) :
    Σ' (L3 : List (View.Piece (Elt F) S128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, ?_, fun E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.K.R1b.lean ====
/-
  The second kernel region, continued: what each of the body's three courses leaves in the scratch and in the
  output's buffer, the scratch after every point as a recursion over the points, the region's invariant (the scratch
  at that recursion's value, the other scoped buffers and the generator register at anything), the proof data, and
  the body obligation at every point by cases on `t % 8`.

  The projection's array is read by two windows; each holds it at one half of the full share.
-/
import proofs.«177701_j45286135169752_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three courses leave -/

theorem scover1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i) (x0 : Vec F S128x1024 .bf16) (x1 : Vec F S64x1024 .bf16) (x2 : Vec F S1024x128 .bf16) (y : S128x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S128x128.size (by sl_kernel_rfl) y
/-- The scratch after the first point of a row of eight. -/
def sout1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i) (x0 : Vec F S128x1024 .bf16) (x1 : Vec F S64x1024 .bf16) (x2 : Vec F S1024x128 .bf16) : Vec F S128x128 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i) (x0 : Vec F S128x1024 .bf16) (x1 : Vec F S64x1024 .bf16) (x2 : Vec F S1024x128 .bf16) (xs : Vec F S128x128 .f32) (y : S128x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S128x128.size (by sl_kernel_rfl) y
/-- The scratch after a middle point, from what the point before left in it. -/
def sout1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i) (x0 : Vec F S128x1024 .bf16) (x1 : Vec F S64x1024 .bf16) (x2 : Vec F S1024x128 .bf16) (xs : Vec F S128x128 .f32) : Vec F S128x128 .f32 :=
  VS1.read (Elt F) (VS1.writes (Elt F) VS1.junk (kernelRun1_B c i arg2 harg2 arg3 harg3 arg4 harg4 arg5 harg5 arg6 harg6 hc0 hc1 x0 x1 x2 xs).1)

theorem cover1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) (y : S128x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S128x128.size (by sl_kernel_rfl) y
theorem scover1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) (y : S128x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S128x128.size (by sl_kernel_rfl) y
/-- The output's buffer after the last point of a row of eight, -/
def out1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) : Vec F S128x128 .f32 :=
  VO1.read (Elt F) (VO1.writes (Elt F) VO1.junk (kernelRun1_C c i arg2 harg2 arg3 harg3 arg4 harg4 arg5 harg5 arg6 harg6 hc0 hc1 x0 x1 x2 xs).1)
/-- and the scratch there. -/
def sout1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) : Vec F S128x128 .f32 :=
  VS1.read (Elt F) (VS1.writes (Elt F) VS1.junk (kernelRun1_C c i arg2 harg2 arg3 harg3 arg4 harg4 arg5 harg5 arg6 harg6 hc0 hc1 x0 x1 x2 xs).2.1)

/-! ## The courses at a point of the grid -/

theorem not7_of_0 {n : ℕ} (h : n % 8 = 0) : ¬ n % 8 = 7 := by omega
theorem not0_of_7 {n : ℕ} (h : n % 8 = 7) : ¬ n % 8 = 0 := by omega

def stepA (c : Dev nD) (t : Fin cfg1.N) (h0 : t.val % 8 = 0) : Vec F S128x128 .f32 :=
  sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not7_of_0 h0 ((hcond1_1 t).mp h)) (iblk1 V c 0 t) (iblk1 V c 1 t) (iblk1 V c 2 t)
def stepB (c : Dev nD) (t : Fin cfg1.N) (h0 : ¬t.val % 8 = 0) (h1 : ¬t.val % 8 = 7) (xs : Vec F S128x128 .f32) : Vec F S128x128 .f32 :=
  sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs
def stepC (c : Dev nD) (t : Fin cfg1.N) (h1 : t.val % 8 = 7) (xs : Vec F S128x128 .f32) : Vec F S128x128 .f32 :=
  sout1_C c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) xs
def outC (c : Dev nD) (t : Fin cfg1.N) (h1 : t.val % 8 = 7) (xs : Vec F S128x128 .f32) : Vec F S128x128 .f32 :=
  out1_C c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) xs

/-- THE ACCUMULATION: the scratch after the body at point `n`. -/
def accAt (c : Dev nD) : (n : ℕ) → n < cfg1.N → Vec F S128x128 .f32
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h1 (accAt c n (Nat.lt_of_succ_lt hn))
    else stepB V c ⟨n + 1, hn⟩ h0 h1 (accAt c n (Nat.lt_of_succ_lt hn))

theorem accAt_A (c : Dev nD) (t : Fin cfg1.N) (h0 : t.val % 8 = 0) : accAt V c t.val t.isLt = stepA V c t h0 := by
  obtain ⟨n, hn⟩ := t
  cases n with
  | zero => rfl
  | succ n => exact dif_pos h0

theorem accAt_B (c : Dev nD) (t : Fin cfg1.N) (h0 : ¬t.val % 8 = 0) (h1 : ¬t.val % 8 = 7) :
    accAt V c t.val t.isLt = stepB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_C (c : Dev nD) (t : Fin cfg1.N) (h1 : t.val % 8 = 7) :
    accAt V c t.val t.isLt = stepC V c t h1 (accAt V c (t.val - 1) (Nat.lt_of_le_of_lt (Nat.sub_le _ _) t.isLt)) := by
  obtain ⟨n, hn⟩ := t
  cases n with
  | zero => exact False.elim (by have h : (0 : ℕ) % 8 = 7 := h1; omega)
  | succ n => exact (dif_neg (not0_of_7 h1)).trans (dif_pos h1)

/-- The output's staging buffer after the body at point `t`: where `t % 8 = 7` the scratch copied out; elsewhere the
    window is idle and this value is consulted by nothing. -/
def outAt (c : Dev nD) (t : Fin cfg1.N) : Vec F S128x128 .f32 :=
  if h1 : t.val % 8 = 7 then outC V c t h1 (accAt V c (t.val - 1) (Nat.lt_of_le_of_lt (Nat.sub_le _ _) t.isLt))
  else accAt V c t.val t.isLt

/-! ## The invariant -/

/-- The five scoped buffers of the core that are neither staging buffers of this region nor its scratch, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant, with the scratch split off as a memref owned at some contents. -/
theorem PhiA1_split (c : Dev nD) :
    (Pipeline.ΦA spec1 c : sProp 𝕄) ⊣⊢ iprop(others1 (F := F) c ∗ (∃ d, owns (c : Thread nD τ) scM1 fullShare d) ∗ (∃ r, prngReg c r)) := by
  unfold Pipeline.ΦA; rw [scopedRest1_eq]; simp only [scM1, owns_whole]
  constructor
  · iintro ⟨⟨A0, A1, A2, A3, A4, S⟩, G⟩
    isplitl [A0 A1 A2 A3 A4]
    · isplitl [A0]; · iexact A0
      isplitl [A1]; · iexact A1
      isplitl [A2]; · iexact A2
      isplitl [A3]; · iexact A3
      iexact A4
    isplitl [S]; · iexact S
    iexact G
  · iintro ⟨⟨A0, A1, A2, A3, A4⟩, S, G⟩
    isplitr [G]
    · isplitl [A0]; · iexact A0
      isplitl [A1]; · iexact A1
      isplitl [A2]; · iexact A2
      isplitl [A3]; · iexact A3
      isplitl [A4]; · iexact A4
      iexact S
    iexact G

/-- The region invariant before position `n`: before the first point the class's; afterwards the scratch at what the
    point before left in it, the other scoped buffers and the generator register at anything. -/
def PhiS1 (c : Dev nD) : (n : ℕ) → n ≤ cfg1.N → sProp 𝕄
  | 0, _ => Pipeline.ΦA spec1 c
  | n + 1, hn => iprop(others1 (F := F) c ∗ owns (c : Thread nD τ) scM1 fullShare (accAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 (F := F) c ∗ owns (c : Thread nD τ) scM1 fullShare (accAt V c n hn) ∗ (∃ r, prngReg c r)) := rfl
theorem PhiS1_pos (c : Dev nD) (n : ℕ) (h : n ≤ cfg1.N) (hz : n ≠ 0) :
    PhiS1 V c n h = iprop(others1 (F := F) c ∗ owns (c : Thread nD τ) scM1 fullShare (accAt V c (n - 1) (by omega)) ∗ (∃ r, prngReg c r)) := by
  cases n with
  | zero => exact absurd rfl hz
  | succ n => rfl

/-! ## The region's proof data -/

/-- The arrays as the region finds them; after the body each input's buffer at its block, the output's at `outAt`;
    the invariant `PhiS1`; nothing owed; the projection's array at one half share in each of the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.R1c.lean ====
/-
  The second kernel region, concluded: the body obligation at every point. The point's place in its row of eight
  (`t % 8`) says which of the body's three courses runs; the inputs' buffers hold their blocks; the invariant hands
  the body the scratch at what the point before left (at anything at the very first point) and takes it back at this
  point's value; where the output window is idle its buffer passes through untouched.
-/
import proofs.«177701_j45286135169752_2_alg».proof.Proof.K.R1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 8 = 0
  · -- the first point of a row of eight
    have hc0 : cond1_0 (grid1.coords t) := (hcond1_0 t).mpr h0
    have hc1 : ¬cond1_1 (grid1.coords t) := fun h => not7_of_0 h0 ((hcond1_1 t).mp h)
    rw [Dat.leavesExact_idle (dat1 V c) 3 t (idleAt1_3 t hc1) (noFlush1_3 t hc1)]
    rw [accAt_A V c t h0]
    unfold stepA sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c).1 $$ HΦ
      icases HΦ' with ⟨HA, HS, Hg⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · -- the last point of a row of eight
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_C V c t h1]
      unfold outAt; rw [dif_pos h1]
      unfold stepC outC sout1_C out1_C; (try dsimp only)
      rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HS Hg]
      · isplitl [HA]; · iexact HA
        isplitl [HS]
        · unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle point
      have hc1 : ¬cond1_1 (grid1.coords t) := fun h => h1 ((hcond1_1 t).mp h)
      rw [Dat.leavesExact_idle (dat1 V c) 3 t (idleAt1_3 t hc1) (noFlush1_3 t hc1)]
      rw [accAt_B V c t h0 h1]
      unfold stepB sout1_B; (try dsimp only)
      rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the scratch's contents are forgotten. -/
theorem Phi1_last (c : Dev nD) : (dat1 V c).Φ (Fin.last cfg1.N) ⊢ (Pipeline.ΦA spec1 c : sProp 𝕄) := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨HA, HS, Hg⟩
  iapply (PhiA1_split (F := F) c).2
  isplitl [HA]; · iexact HA
  isplitl [HS]; · iexists _; iexact HS
  iexact Hg

end Cert.Kernel.Hand

end
-- ==== Proof.K.RunW.lean ====
/-
  The contents of the core's buffers at each boundary of the program's seven items: the launch memory, then a host
  stretch (two operations that flatten and round the weight), the projection region, three host stretches (which
  build the 0/1 group matrix), the distance region, and the last host stretch (slice and join).

  A host stretch's effect is the fold of its operations. The projection region changes only its result array, the
  distance region only its own result array; both results are what the write-backs of the region's points leave.
  The two argument arrays are written by no item, so they end as launched.
-/
import proofs.«177701_j45286135169752_2_alg».proof.Proof.K.R1c
import proofs.«177701_j45286135169752_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the region leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches that build the group matrix: the distance region's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the distance region's exit: its result array at what the region leaves, every other buffer as entered
    (its three other windows are inputs, never written). -/
def W6 (c : Dev nD) : Valuation τ sig (Elt F) :=
  Function.update (W5 m ρ c) (Proc.devRef .tc main_v14) ((dat1 (V5 m ρ) c).arrAt 3 cfg1.N)
abbrev V6 : (c : Dev nD) → (b : Ref sig .tc) → Buf (Elt F) ((c : Thread nD τ).loc b) := fun c b => W6 m ρ c b
theorem W6_out (c : Dev nD) : W6 m ρ c (Proc.devRef .tc main_v14) = (dat1 (V5 m ρ) c).arrAt 3 cfg1.N := by
  unfold W6; exact Function.update_self _ _ _
theorem W6_of_ne (c : Dev nD) (b : Ref sig .tc) (hb : b ≠ main_v14) :
    W6 m ρ c (Proc.devRef .tc b) = W5 m ρ c (Proc.devRef .tc b) := by
  unfold W6; exact Function.update_of_ne (StableHlo.devRef_ne_of_ne hb) _ _
/-- After the last host stretch: the end. -/
abbrev W7 : Dev nD → Valuation τ sig (Elt F) := fun c => StableHlo.after hostOps2 (W6 m ρ c)

/-- At the distance region's exit each of its arrays holds what the region leaves: the inputs what they held. -/
theorem hF1 (c : Dev nD) (w : Fin cfg1.W) : (dat1 (V5 m ρ) c).arrAt w cfg1.N = V6 m ρ c (Pipeline.arrRef spec1 w) := by
  match w with
  | ⟨0, _⟩ => exact (((dat1 (V5 m ρ) c).arrAt_in 0 rfl _).trans (A_eq1 (V5 m ρ) c 0)).trans (W6_of_ne m ρ c main_v2 (by decide)).symm
  | ⟨1, _⟩ => exact (((dat1 (V5 m ρ) c).arrAt_in 1 rfl _).trans (A_eq1 (V5 m ρ) c 1)).trans (W6_of_ne m ρ c main_v2 (by decide)).symm
  | ⟨2, _⟩ => exact (((dat1 (V5 m ρ) c).arrAt_in 2 rfl _).trans (A_eq1 (V5 m ρ) c 2)).trans (W6_of_ne m ρ c main_v13 (by decide)).symm
  | ⟨3, _⟩ => exact (W6_out m ρ c).symm
theorem hrest1 (c : Dev nD) : ∀ b, b ∉ Finset.univ.image (Pipeline.arrRef spec1) → V6 m ρ c b = V5 m ρ c b :=
  fun b hb => W6_of_ne m ρ c b fun e => hb (Finset.mem_image.mpr ⟨3, Finset.mem_univ _, e.symm⟩)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide : main_arg0 ∉ hostOps1_2_W)
    _ = W3 m ρ c (Proc.devRef .tc main_arg0) := StableHlo.after_of_writes_sub hostOps1_1 _ hostOps1_1_writes (by decide : main_arg0 ∉ hostOps1_1_W)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide : main_arg1 ∉ hostOps1_2_W)
    _ = W3 m ρ c (Proc.devRef .tc main_arg1) := StableHlo.after_of_writes_sub hostOps1_1 _ hostOps1_1_writes (by decide : main_arg1 ∉ hostOps1_1_W)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

end Cert.Kernel.Hand

end
-- ==== Proof.K.Share.lean ====
/-
  The distance region's four windows stand on three buffers: the projection (read by windows 0 and 1), the group
  matrix (window 2) and the result (window 3). The region's arrays are therefore the projection's buffer at the two
  halves of the full share, and the other two buffers whole. Splitting the full share into its halves and joining
  them again is all that separates "the three buffers, each whole" from "the four windows' arrays".
-/
import proofs.«177701_j45286135169752_2_alg».proof.Proof.K.RunW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows. -/
theorem img1 : (Finset.univ.image (Pipeline.arrRef spec1) : Finset (Ref sig .tc)) = {main_v2, main_v13, main_v14} := by decide

theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v2) ↦{fullShare} U main_v2) ∗ (((c : Thread nD τ).loc main_v13) ↦{fullShare} U main_v13)
          ∗ (((c : Thread nD τ).loc main_v14) ↦{fullShare} U main_v14)) := by
  unfold Pipeline.arrBufs
  rw [img1, BI.bigSep_insert (by decide), BI.bigSep_insert (by decide), BI.bigSep_singleton]
  rfl

theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v2) ↦{fullShare.left} Fn 0) ∗ (((c : Thread nD τ).loc main_v2) ↦{fullShare.right} Fn 1)
          ∗ (((c : Thread nD τ).loc main_v13) ↦{fullShare} Fn 2) ∗ (((c : Thread nD τ).loc main_v14) ↦{fullShare} Fn 3)) := by
  unfold Dat.arrays
  rw [bigSep_W1]
  rw [(arr_whole1 0).set_eq_univ, (arr_whole1 2).set_eq_univ, (arr_whole1 3).set_eq_univ]
  rfl

/-- ENTRY: the core's unscoped buffers at `V c` are the region's arrays at those contents — the projection's buffer
    split into its two half shares — and the unscoped rest. -/
theorem split1 (c : Dev nD) :
    (unscopedBufs c (V c) : sProp 𝕄)
      ⊢ iprop((dat1 V c).arrays (fun w => V c (Pipeline.arrRef spec1 w))
          ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop((Pipeline.arrBufs (Ix := Unit) (Name := ℕ) (U := UR sig nD τ) (Lvl := ℕ) spec1 c (V c) : sProp 𝕄) ∗ Pipeline.unscopedRest spec1 c (V c)) ⊢ _
  rw [arrBufs1_eq, arrays1_eq]
  iintro ⟨⟨H2, H13, H14⟩, Hrest⟩
  ihave H2' := (pointsTo_share (PosShare.mem_left_op_right fullShare)).1 $$ H2
  icases H2' with ⟨H2l, H2r⟩
  isplitr [Hrest]
  · isplitl [H2l]; · iexact H2l
    isplitl [H2r]; · iexact H2r
    isplitl [H13]; · iexact H13
    iexact H14
  iexact Hrest

/-- EXIT: the region's arrays at contents `Fn` and the unscoped rest are the core's unscoped buffers at any contents
    `U'` that has the arrays' buffers at `Fn` (the two windows on the projection agreeing) and agrees with `V c` elsewhere:
    the two half shares of the projection's buffer are joined. -/
theorem join1 (c : Dev nD) (U' : (b : Ref sig .tc) → Buf (Elt F) ((c : Thread nD τ).loc b))
    (Fn : (w : Fin cfg1.W) → Buf (Elt F) ((cfg1.win w).arr.view.loc (c : Thread nD τ)))
    (h0 : Fn 0 = U' main_v2) (h1 : Fn 1 = U' main_v2) (h2 : Fn 2 = U' main_v13) (h3 : Fn 3 = U' main_v14)
    (hrest : ∀ b, b ∉ Finset.univ.image (Pipeline.arrRef spec1) → U' b = V c b) :
    iprop((dat1 V c).arrays Fn ∗ Pipeline.unscopedRest (Ix := Unit) (Name := ℕ) (U := UR sig nD τ) (Lvl := ℕ) spec1 c (V c))
      ⊢ (unscopedBufs c U' : sProp 𝕄) := by
  have hr : (Pipeline.unscopedRest (Ix := Unit) (Name := ℕ) (U := UR sig nD τ) (Lvl := ℕ) spec1 c U' : sProp 𝕄)
      = Pipeline.unscopedRest spec1 c (V c) := by
    unfold Pipeline.unscopedRest
    exact BI.bigSep_congr fun b hb => by rw [hrest b (Finset.mem_sdiff.mp hb).2]
  rw [Pipeline.unscopedBufs_split₀ cfgs 1 winFacts₀1.arr_unscoped c U']
  show _ ⊢ iprop((Pipeline.arrBufs (Ix := Unit) (Name := ℕ) (U := UR sig nD τ) (Lvl := ℕ) spec1 c U' : sProp 𝕄) ∗ Pipeline.unscopedRest spec1 c U')
  rw [arrBufs1_eq, arrays1_eq, h0, h1, h2, h3, hr]
  iintro ⟨⟨H2l, H2r, H13, H14⟩, Hrest⟩
  isplitr [Hrest]
  · isplitl [H2l H2r]
    · iapply (pointsTo_share (PosShare.mem_left_op_right fullShare)).2
      isplitl [H2l]; · iexact H2l
      iexact H2r
    isplitl [H13]; · iexact H13
    iexact H14
  iexact Hrest

end Cert.Kernel.Hand

end
-- ==== Proof.K.RunSeg.lean ====
/-
  The program as seven segments — host stretch, projection region, three host stretches, distance region, host
  stretch — each entered from the thread state "every unscoped buffer at the boundary's contents, the generator
  register at some state, nothing owed" and left at the next boundary's. A region takes its arrays out of the
  unscoped buffers at entry and puts them back, at what its write-backs leave, at exit. The run: every weakly fair
  execution terminates, and the final memory holds every unscoped buffer at the last boundary's contents.
-/
import proofs.«177701_j45286135169752_2_alg».proof.Proof.K.Share

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No region has a prefetched table. -/
abbrev adm : (p : Fin 2) → (pcfgs (F := F) p).Adm := fun p => (cfgs p).toPCfg_adm
/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owing: every unscoped buffer at the last boundary's contents. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from the buffers after the first host stretch, left with its result array at
    what its four points wrote. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from the buffers after the group matrix is built, left with its result array at
    what its four write-backs wrote. The projection's buffer is split in two half shares at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := (show (unscopedBufs c (V5 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (V5 m ρ c)) from split1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_last (V5 m ρ) c).trans ?_
    unfold Pipeline.ΦA
    iintro ⟨Hr, Hp⟩
    isplitl [Hp]; · iexact Hp
    isplitr; · iempintro
    iexact Hr
  hexit c := by
    have hjoin := (show iprop((pdats m ρ 1 c).arrays ((pdats m ρ 1 c).arrAt · cfg1.N)
        ∗ Pipeline.unscopedRest (Ix := Unit) (Name := ℕ) (U := UR sig nD τ) (Lvl := ℕ) spec1 c (V5 m ρ c)) ⊢ (unscopedBufs c (V6 m ρ c) : sProp 𝕄) from
      join1 (V5 m ρ) c (V6 m ρ c) ((dat1 (V5 m ρ) c).arrAt · cfg1.N) (hF1 m ρ c 0) (hF1 m ρ c 1) (hF1 m ρ c 2) (hF1 m ρ c 3) (hrest1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option backward.isDefEq.respectTransparency.types false in
/-- THE RUN. From any memory with zero counters every weakly fair execution of the program terminates, nothing
    faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m ρ c), (h c _ (mem_uc main_arg1 (by decide))).trans (W7_main_arg1 m ρ c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)), (h c _ (mem_uc main_arg0 (by decide))).trans (W7_main_arg0 m ρ c), (h c _ (mem_uc main_arg1 (by decide))).trans (W7_main_arg1 m ρ c)⟩) (run_all m ρ)

end Cert.Kernel.Hand

end
-- ==== Proof.KI.R0.lean ====
/-
  The first kernel region (the projection), at the buffer contents `V` the region is entered with.

  The grid has four points; point `t` takes rows `128 t … 128 t + 127` of the first operand (window 0), the whole
  second operand (window 1, fetched once) and writes rows `128 t …` of the result (window 2). The body loads the
  two input blocks, forms one value from them (the product of the block with the whole weight, as the skeleton's
  payload) and stores it over the whole output block; it also loads the output block first, a value it never uses.
  So after the body at a point the output's staging buffer holds that payload of the two input blocks, the input
  buffers are as they were, and nothing is kept from point to point.
-/
import proofs.«177701_j45286135169752_2_alg».proof.Proof.Gen.KernelIdeal.Launch
import proofs.«177701_j45286135169752_2_alg».proof.Proof.Gen.KernelIdeal.Skeleton
import proofs.«177701_j45286135169752_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output buffer -/

abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The output's staging buffer after the body, from the two input blocks: its one store as a piece. -/
def out0_2 (x0 : Vec F S128x1024 .f32) (x1 : Vec F S1024x1024 .bf16) : Vec F S128x1024 .bf16 :=
  View.canon [⟨r0_a, k0_pay1 (View.ld x0 r0_a) (View.ld x1 r0_b)⟩]

/-- The one store covers the buffer. -/
theorem cover0_2 (p0 : Vec F S128x1024 .bf16) (y : S128x1024.Idx) :
    ∃ pc ∈ ([⟨r0_a, p0⟩] : List (View.Piece (Elt F) S128x1024 .bf16)), y ∈ pc.1.set :=
  View.cover_of_tiled [⟨r0_a, p0⟩] S128x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S128x1024 .f32) (harg1 : arg1.IsWhole)
    (arg2 : Memref sig .tc .vmem S1024x1024 .bf16) (harg2 : arg2.IsWhole) (arg3 : Memref sig .tc .vmem S128x1024 .bf16) (harg3 : arg3.IsWhole)
    (x0 : Vec F S128x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- After the body at point `t`: each input's buffer at its block, the output's at `out0_2` of the input blocks;
    the invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second kernel region (pairwise distances, exponentials, row sums), at the buffer contents `V` the region is
  entered with.

  The grid is 4 × 8, point `t` having coordinates `(t / 8, t % 8)`. Windows 0 and 1 both read the projection: window 0
  the block of 128 rows `t / 8` (fetched when `t % 8 = 0`), window 1 the block of 64 rows `t % 8` (fetched at every
  point); window 2 is the whole 0/1 group matrix (fetched once); window 3 is the block of 128 rows `t / 8` of the
  result, written back when `t % 8 = 7`. A scratch buffer of 128 × 128 is carried from point to point.

  The body has three courses, by `t % 8`: at `0` it stores zero into the scratch, then adds the point's partial sums
  to it; at `1 … 6` it only adds; at `7` it adds and then copies the scratch into the output block. So the scratch
  after point `t` is a recursion over the points (`accAt`), restarted wherever `t % 8 = 0`; the output's staging buffer
  is touched only where `t % 8 = 7`, and elsewhere the window is idle: the body hands the buffer back as found.
-/
import proofs.«177701_j45286135169752_2_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (where it is not fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "The second grid coordinate is zero": the condition under which the body clears the scratch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The second grid coordinate is seven": the condition under which the body copies the scratch out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a row of eight the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S128x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
/-- The scratch the body carries between points, and the views through which its and the output's contents are stated. -/
abbrev scM1 : Memref sig .tc .vmem S128x128 .f32 := Memref.whole cc1_scratch0
abbrev VS1 : View sig .tc .vmem S128x128 .f32 := scM1.view
abbrev VO1 : View sig .tc .vmem S128x128 .f32 := (Memref.whole cc1_stg3_0 : Memref sig .tc .vmem S128x128 .f32).view

/-! ## The body's three courses -/

set_option maxHeartbeats 2000000 in
/-- The first point of a row of eight: the scratch, found at anything, is cleared and the partial sums added; the
    output's buffer is handed back as found. The pieces the scratch ends with are what the run finds. -/
noncomputable def kernelRun1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i)
    (x0 : Vec F S128x1024 .bf16) (x1 : Vec F S64x1024 .bf16) (x2 : Vec F S1024x128 .bf16) :
    { LS : List (View.Piece (Elt F) S128x128 .f32) //
      ∀ (xi : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, fun xi E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A middle point: the partial sums are added to the scratch, found at `xs`; the output's buffer is handed back as found. -/
noncomputable def kernelRun1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i)
    (x0 : Vec F S128x1024 .bf16) (x1 : Vec F S64x1024 .bf16) (x2 : Vec F S1024x128 .bf16) (xs : Vec F S128x128 .f32) :
    { LS : List (View.Piece (Elt F) S128x128 .f32) //
      ∀ (xi : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, fun xi E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The last point of a row of eight: the partial sums are added to the scratch, found at `xs`, and the scratch is
    copied over the output's buffer, found at anything. -/
noncomputable def kernelRun1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i)
    (x0 : Vec F S128x1024 .bf16) (x1 : Vec F S64x1024 .bf16) (x2 : Vec F S1024x128 .bf16) (xs : Vec F S128x128 .f32) :
    Σ' (L3 : List (View.Piece (Elt F) S128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__l1_kernel i arg2 harg2 arg3 harg3 arg4 harg4 arg5 harg5 arg6 harg6) K } := by
  refine ⟨?_, ?_, fun E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KI.R1b.lean ====
/-
  The second kernel region, continued: what each of the body's three courses leaves in the scratch and in the
  output's buffer, the scratch after every point as a recursion over the points, the region's invariant (the scratch
  at that recursion's value, the other scoped buffers and the generator register at anything), the proof data, and
  the body obligation at every point by cases on `t % 8`.

  The projection's array is read by two windows; each holds it at one half of the full share.
-/
import proofs.«177701_j45286135169752_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three courses leave -/

theorem scover1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i) (x0 : Vec F S128x1024 .bf16) (x1 : Vec F S64x1024 .bf16) (x2 : Vec F S1024x128 .bf16) (y : S128x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S128x128.size (by sl_kernel_rfl) y
/-- The scratch after the first point of a row of eight. -/
def sout1_A (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i) (x0 : Vec F S128x1024 .bf16) (x1 : Vec F S64x1024 .bf16) (x2 : Vec F S1024x128 .bf16) : Vec F S128x128 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i) (x0 : Vec F S128x1024 .bf16) (x1 : Vec F S64x1024 .bf16) (x2 : Vec F S1024x128 .bf16) (xs : Vec F S128x128 .f32) (y : S128x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S128x128.size (by sl_kernel_rfl) y
/-- The scratch after a middle point, from what the point before left in it. -/
def sout1_B (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i) (x0 : Vec F S128x1024 .bf16) (x1 : Vec F S64x1024 .bf16) (x2 : Vec F S1024x128 .bf16) (xs : Vec F S128x128 .f32) : Vec F S128x128 .f32 :=
  VS1.read (Elt F) (VS1.writes (Elt F) VS1.junk (kernelRun1_B c i arg2 harg2 arg3 harg3 arg4 harg4 arg5 harg5 arg6 harg6 hc0 hc1 x0 x1 x2 xs).1)

theorem cover1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) (y : S128x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S128x128.size (by sl_kernel_rfl) y
theorem scover1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) (y : S128x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S128x128.size (by sl_kernel_rfl) y
/-- The output's buffer after the last point of a row of eight, -/
def out1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) : Vec F S128x128 .f32 :=
  VO1.read (Elt F) (VO1.writes (Elt F) VO1.junk (kernelRun1_C c i arg2 harg2 arg3 harg3 arg4 harg4 arg5 harg5 arg6 harg6 hc0 hc1 x0 x1 x2 xs).1)
/-- and the scratch there. -/
def sout1_C (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) : Vec F S128x128 .f32 :=
  VS1.read (Elt F) (VS1.writes (Elt F) VS1.junk (kernelRun1_C c i arg2 harg2 arg3 harg3 arg4 harg4 arg5 harg5 arg6 harg6 hc0 hc1 x0 x1 x2 xs).2.1)

/-! ## The courses at a point of the grid -/

theorem not7_of_0 {n : ℕ} (h : n % 8 = 0) : ¬ n % 8 = 7 := by omega
theorem not0_of_7 {n : ℕ} (h : n % 8 = 7) : ¬ n % 8 = 0 := by omega

def stepA (c : Dev nD) (t : Fin cfg1.N) (h0 : t.val % 8 = 0) : Vec F S128x128 .f32 :=
  sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not7_of_0 h0 ((hcond1_1 t).mp h)) (iblk1 V c 0 t) (iblk1 V c 1 t) (iblk1 V c 2 t)
def stepB (c : Dev nD) (t : Fin cfg1.N) (h0 : ¬t.val % 8 = 0) (h1 : ¬t.val % 8 = 7) (xs : Vec F S128x128 .f32) : Vec F S128x128 .f32 :=
  sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs
def stepC (c : Dev nD) (t : Fin cfg1.N) (h1 : t.val % 8 = 7) (xs : Vec F S128x128 .f32) : Vec F S128x128 .f32 :=
  sout1_C c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) xs
def outC (c : Dev nD) (t : Fin cfg1.N) (h1 : t.val % 8 = 7) (xs : Vec F S128x128 .f32) : Vec F S128x128 .f32 :=
  out1_C c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) xs

/-- THE ACCUMULATION: the scratch after the body at point `n`. -/
def accAt (c : Dev nD) : (n : ℕ) → n < cfg1.N → Vec F S128x128 .f32
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h1 (accAt c n (Nat.lt_of_succ_lt hn))
    else stepB V c ⟨n + 1, hn⟩ h0 h1 (accAt c n (Nat.lt_of_succ_lt hn))

theorem accAt_A (c : Dev nD) (t : Fin cfg1.N) (h0 : t.val % 8 = 0) : accAt V c t.val t.isLt = stepA V c t h0 := by
  obtain ⟨n, hn⟩ := t
  cases n with
  | zero => rfl
  | succ n => exact dif_pos h0

theorem accAt_B (c : Dev nD) (t : Fin cfg1.N) (h0 : ¬t.val % 8 = 0) (h1 : ¬t.val % 8 = 7) :
    accAt V c t.val t.isLt = stepB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_C (c : Dev nD) (t : Fin cfg1.N) (h1 : t.val % 8 = 7) :
    accAt V c t.val t.isLt = stepC V c t h1 (accAt V c (t.val - 1) (Nat.lt_of_le_of_lt (Nat.sub_le _ _) t.isLt)) := by
  obtain ⟨n, hn⟩ := t
  cases n with
  | zero => exact False.elim (by have h : (0 : ℕ) % 8 = 7 := h1; omega)
  | succ n => exact (dif_neg (not0_of_7 h1)).trans (dif_pos h1)

/-- The output's staging buffer after the body at point `t`: where `t % 8 = 7` the scratch copied out; elsewhere the
    window is idle and this value is consulted by nothing. -/
def outAt (c : Dev nD) (t : Fin cfg1.N) : Vec F S128x128 .f32 :=
  if h1 : t.val % 8 = 7 then outC V c t h1 (accAt V c (t.val - 1) (Nat.lt_of_le_of_lt (Nat.sub_le _ _) t.isLt))
  else accAt V c t.val t.isLt

/-! ## The invariant -/

/-- The five scoped buffers of the core that are neither staging buffers of this region nor its scratch, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant, with the scratch split off as a memref owned at some contents. -/
theorem PhiA1_split (c : Dev nD) :
    (Pipeline.ΦA spec1 c : sProp 𝕄) ⊣⊢ iprop(others1 (F := F) c ∗ (∃ d, owns (c : Thread nD τ) scM1 fullShare d) ∗ (∃ r, prngReg c r)) := by
  unfold Pipeline.ΦA; rw [scopedRest1_eq]; simp only [scM1, owns_whole]
  constructor
  · iintro ⟨⟨A0, A1, A2, A3, A4, S⟩, G⟩
    isplitl [A0 A1 A2 A3 A4]
    · isplitl [A0]; · iexact A0
      isplitl [A1]; · iexact A1
      isplitl [A2]; · iexact A2
      isplitl [A3]; · iexact A3
      iexact A4
    isplitl [S]; · iexact S
    iexact G
  · iintro ⟨⟨A0, A1, A2, A3, A4⟩, S, G⟩
    isplitr [G]
    · isplitl [A0]; · iexact A0
      isplitl [A1]; · iexact A1
      isplitl [A2]; · iexact A2
      isplitl [A3]; · iexact A3
      isplitl [A4]; · iexact A4
      iexact S
    iexact G

/-- The region invariant before position `n`: before the first point the class's; afterwards the scratch at what the
    point before left in it, the other scoped buffers and the generator register at anything. -/
def PhiS1 (c : Dev nD) : (n : ℕ) → n ≤ cfg1.N → sProp 𝕄
  | 0, _ => Pipeline.ΦA spec1 c
  | n + 1, hn => iprop(others1 (F := F) c ∗ owns (c : Thread nD τ) scM1 fullShare (accAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 (F := F) c ∗ owns (c : Thread nD τ) scM1 fullShare (accAt V c n hn) ∗ (∃ r, prngReg c r)) := rfl
theorem PhiS1_pos (c : Dev nD) (n : ℕ) (h : n ≤ cfg1.N) (hz : n ≠ 0) :
    PhiS1 V c n h = iprop(others1 (F := F) c ∗ owns (c : Thread nD τ) scM1 fullShare (accAt V c (n - 1) (by omega)) ∗ (∃ r, prngReg c r)) := by
  cases n with
  | zero => exact absurd rfl hz
  | succ n => rfl

/-! ## The region's proof data -/

/-- The arrays as the region finds them; after the body each input's buffer at its block, the output's at `outAt`;
    the invariant `PhiS1`; nothing owed; the projection's array at one half share in each of the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.R1c.lean ====
/-
  The second kernel region, concluded: the body obligation at every point. The point's place in its row of eight
  (`t % 8`) says which of the body's three courses runs; the inputs' buffers hold their blocks; the invariant hands
  the body the scratch at what the point before left (at anything at the very first point) and takes it back at this
  point's value; where the output window is idle its buffer passes through untouched.
-/
import proofs.«177701_j45286135169752_2_alg».proof.Proof.KI.R1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 8 = 0
  · -- the first point of a row of eight
    have hc0 : cond1_0 (grid1.coords t) := (hcond1_0 t).mpr h0
    have hc1 : ¬cond1_1 (grid1.coords t) := fun h => not7_of_0 h0 ((hcond1_1 t).mp h)
    rw [Dat.leavesExact_idle (dat1 V c) 3 t (idleAt1_3 t hc1) (noFlush1_3 t hc1)]
    rw [accAt_A V c t h0]
    unfold stepA sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c).1 $$ HΦ
      icases HΦ' with ⟨HA, HS, Hg⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · -- the last point of a row of eight
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_C V c t h1]
      unfold outAt; rw [dif_pos h1]
      unfold stepC outC sout1_C out1_C; (try dsimp only)
      rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HS Hg]
      · isplitl [HA]; · iexact HA
        isplitl [HS]
        · unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle point
      have hc1 : ¬cond1_1 (grid1.coords t) := fun h => h1 ((hcond1_1 t).mp h)
      rw [Dat.leavesExact_idle (dat1 V c) 3 t (idleAt1_3 t hc1) (noFlush1_3 t hc1)]
      rw [accAt_B V c t h0 h1]
      unfold stepB sout1_B; (try dsimp only)
      rw [PhiS1_castSucc V c t, PhiS1_pos V c _ _ hz]
      iintro ⟨⟨HA, HS, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HS Hg]
      · isplitl [HA]; · iexact HA
        isplitl [HS]
        · unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the scratch's contents are forgotten. -/
theorem Phi1_last (c : Dev nD) : (dat1 V c).Φ (Fin.last cfg1.N) ⊢ (Pipeline.ΦA spec1 c : sProp 𝕄) := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨HA, HS, Hg⟩
  iapply (PhiA1_split (F := F) c).2
  isplitl [HA]; · iexact HA
  isplitl [HS]; · iexists _; iexact HS
  iexact Hg

end Cert.KernelIdeal.Hand

end
-- ==== Proof.KI.RunW.lean ====
/-
  The contents of the core's buffers at each boundary of the program's seven items: the launch memory, then a host
  stretch (two operations that flatten and round the weight), the projection region, three host stretches (which
  build the 0/1 group matrix), the distance region, and the last host stretch (slice and join).

  A host stretch's effect is the fold of its operations. The projection region changes only its result array, the
  distance region only its own result array; both results are what the write-backs of the region's points leave.
  The two argument arrays are written by no item, so they end as launched.
-/
import proofs.«177701_j45286135169752_2_alg».proof.Proof.KI.R1c
import proofs.«177701_j45286135169752_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the region leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches that build the group matrix: the distance region's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the distance region's exit: its result array at what the region leaves, every other buffer as entered
    (its three other windows are inputs, never written). -/
def W6 (c : Dev nD) : Valuation τ sig (Elt F) :=
  Function.update (W5 m ρ c) (Proc.devRef .tc main_v14) ((dat1 (V5 m ρ) c).arrAt 3 cfg1.N)
abbrev V6 : (c : Dev nD) → (b : Ref sig .tc) → Buf (Elt F) ((c : Thread nD τ).loc b) := fun c b => W6 m ρ c b
theorem W6_out (c : Dev nD) : W6 m ρ c (Proc.devRef .tc main_v14) = (dat1 (V5 m ρ) c).arrAt 3 cfg1.N := by
  unfold W6; exact Function.update_self _ _ _
theorem W6_of_ne (c : Dev nD) (b : Ref sig .tc) (hb : b ≠ main_v14) :
    W6 m ρ c (Proc.devRef .tc b) = W5 m ρ c (Proc.devRef .tc b) := by
  unfold W6; exact Function.update_of_ne (StableHlo.devRef_ne_of_ne hb) _ _
/-- After the last host stretch: the end. -/
abbrev W7 : Dev nD → Valuation τ sig (Elt F) := fun c => StableHlo.after hostOps2 (W6 m ρ c)

/-- At the distance region's exit each of its arrays holds what the region leaves: the inputs what they held. -/
theorem hF1 (c : Dev nD) (w : Fin cfg1.W) : (dat1 (V5 m ρ) c).arrAt w cfg1.N = V6 m ρ c (Pipeline.arrRef spec1 w) := by
  match w with
  | ⟨0, _⟩ => exact (((dat1 (V5 m ρ) c).arrAt_in 0 rfl _).trans (A_eq1 (V5 m ρ) c 0)).trans (W6_of_ne m ρ c main_v2 (by decide)).symm
  | ⟨1, _⟩ => exact (((dat1 (V5 m ρ) c).arrAt_in 1 rfl _).trans (A_eq1 (V5 m ρ) c 1)).trans (W6_of_ne m ρ c main_v2 (by decide)).symm
  | ⟨2, _⟩ => exact (((dat1 (V5 m ρ) c).arrAt_in 2 rfl _).trans (A_eq1 (V5 m ρ) c 2)).trans (W6_of_ne m ρ c main_v13 (by decide)).symm
  | ⟨3, _⟩ => exact (W6_out m ρ c).symm
theorem hrest1 (c : Dev nD) : ∀ b, b ∉ Finset.univ.image (Pipeline.arrRef spec1) → V6 m ρ c b = V5 m ρ c b :=
  fun b hb => W6_of_ne m ρ c b fun e => hb (Finset.mem_image.mpr ⟨3, Finset.mem_univ _, e.symm⟩)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide : main_arg0 ∉ hostOps1_2_W)
    _ = W3 m ρ c (Proc.devRef .tc main_arg0) := StableHlo.after_of_writes_sub hostOps1_1 _ hostOps1_1_writes (by decide : main_arg0 ∉ hostOps1_1_W)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide : main_arg1 ∉ hostOps1_2_W)
    _ = W3 m ρ c (Proc.devRef .tc main_arg1) := StableHlo.after_of_writes_sub hostOps1_1 _ hostOps1_1_writes (by decide : main_arg1 ∉ hostOps1_1_W)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

end Cert.KernelIdeal.Hand

end
-- ==== Proof.KI.Share.lean ====
/-
  The distance region's four windows stand on three buffers: the projection (read by windows 0 and 1), the group
  matrix (window 2) and the result (window 3). The region's arrays are therefore the projection's buffer at the two
  halves of the full share, and the other two buffers whole. Splitting the full share into its halves and joining
  them again is all that separates "the three buffers, each whole" from "the four windows' arrays".
-/
import proofs.«177701_j45286135169752_2_alg».proof.Proof.KI.RunW

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows. -/
theorem img1 : (Finset.univ.image (Pipeline.arrRef spec1) : Finset (Ref sig .tc)) = {main_v2, main_v13, main_v14} := by decide

theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v2) ↦{fullShare} U main_v2) ∗ (((c : Thread nD τ).loc main_v13) ↦{fullShare} U main_v13)
          ∗ (((c : Thread nD τ).loc main_v14) ↦{fullShare} U main_v14)) := by
  unfold Pipeline.arrBufs
  rw [img1, BI.bigSep_insert (by decide), BI.bigSep_insert (by decide), BI.bigSep_singleton]
  rfl

theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v2) ↦{fullShare.left} Fn 0) ∗ (((c : Thread nD τ).loc main_v2) ↦{fullShare.right} Fn 1)
          ∗ (((c : Thread nD τ).loc main_v13) ↦{fullShare} Fn 2) ∗ (((c : Thread nD τ).loc main_v14) ↦{fullShare} Fn 3)) := by
  unfold Dat.arrays
  rw [bigSep_W1]
  rw [(arr_whole1 0).set_eq_univ, (arr_whole1 2).set_eq_univ, (arr_whole1 3).set_eq_univ]
  rfl

/-- ENTRY: the core's unscoped buffers at `V c` are the region's arrays at those contents — the projection's buffer
    split into its two half shares — and the unscoped rest. -/
theorem split1 (c : Dev nD) :
    (unscopedBufs c (V c) : sProp 𝕄)
      ⊢ iprop((dat1 V c).arrays (fun w => V c (Pipeline.arrRef spec1 w))
          ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop((Pipeline.arrBufs (Ix := Unit) (Name := ℕ) (U := UR sig nD τ) (Lvl := ℕ) spec1 c (V c) : sProp 𝕄) ∗ Pipeline.unscopedRest spec1 c (V c)) ⊢ _
  rw [arrBufs1_eq, arrays1_eq]
  iintro ⟨⟨H2, H13, H14⟩, Hrest⟩
  ihave H2' := (pointsTo_share (PosShare.mem_left_op_right fullShare)).1 $$ H2
  icases H2' with ⟨H2l, H2r⟩
  isplitr [Hrest]
  · isplitl [H2l]; · iexact H2l
    isplitl [H2r]; · iexact H2r
    isplitl [H13]; · iexact H13
    iexact H14
  iexact Hrest

/-- EXIT: the region's arrays at contents `Fn` and the unscoped rest are the core's unscoped buffers at any contents
    `U'` that has the arrays' buffers at `Fn` (the two windows on the projection agreeing) and agrees with `V c` elsewhere:
    the two half shares of the projection's buffer are joined. -/
theorem join1 (c : Dev nD) (U' : (b : Ref sig .tc) → Buf (Elt F) ((c : Thread nD τ).loc b))
    (Fn : (w : Fin cfg1.W) → Buf (Elt F) ((cfg1.win w).arr.view.loc (c : Thread nD τ)))
    (h0 : Fn 0 = U' main_v2) (h1 : Fn 1 = U' main_v2) (h2 : Fn 2 = U' main_v13) (h3 : Fn 3 = U' main_v14)
    (hrest : ∀ b, b ∉ Finset.univ.image (Pipeline.arrRef spec1) → U' b = V c b) :
    iprop((dat1 V c).arrays Fn ∗ Pipeline.unscopedRest (Ix := Unit) (Name := ℕ) (U := UR sig nD τ) (Lvl := ℕ) spec1 c (V c))
      ⊢ (unscopedBufs c U' : sProp 𝕄) := by
  have hr : (Pipeline.unscopedRest (Ix := Unit) (Name := ℕ) (U := UR sig nD τ) (Lvl := ℕ) spec1 c U' : sProp 𝕄)
      = Pipeline.unscopedRest spec1 c (V c) := by
    unfold Pipeline.unscopedRest
    exact BI.bigSep_congr fun b hb => by rw [hrest b (Finset.mem_sdiff.mp hb).2]
  rw [Pipeline.unscopedBufs_split₀ cfgs 1 winFacts₀1.arr_unscoped c U']
  show _ ⊢ iprop((Pipeline.arrBufs (Ix := Unit) (Name := ℕ) (U := UR sig nD τ) (Lvl := ℕ) spec1 c U' : sProp 𝕄) ∗ Pipeline.unscopedRest spec1 c U')
  rw [arrBufs1_eq, arrays1_eq, h0, h1, h2, h3, hr]
  iintro ⟨⟨H2l, H2r, H13, H14⟩, Hrest⟩
  isplitr [Hrest]
  · isplitl [H2l H2r]
    · iapply (pointsTo_share (PosShare.mem_left_op_right fullShare)).2
      isplitl [H2l]; · iexact H2l
      iexact H2r
    isplitl [H13]; · iexact H13
    iexact H14
  iexact Hrest

end Cert.KernelIdeal.Hand

end
-- ==== Proof.KI.RunSeg.lean ====
/-
  The program as seven segments — host stretch, projection region, three host stretches, distance region, host
  stretch — each entered from the thread state "every unscoped buffer at the boundary's contents, the generator
  register at some state, nothing owed" and left at the next boundary's. A region takes its arrays out of the
  unscoped buffers at entry and puts them back, at what its write-backs leave, at exit. The run: every weakly fair
  execution terminates, and the final memory holds every unscoped buffer at the last boundary's contents.
-/
import proofs.«177701_j45286135169752_2_alg».proof.Proof.KI.Share

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No region has a prefetched table. -/
abbrev adm : (p : Fin 2) → (pcfgs (F := F) p).Adm := fun p => (cfgs p).toPCfg_adm
/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owing: every unscoped buffer at the last boundary's contents. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from the buffers after the first host stretch, left with its result array at
    what its four points wrote. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from the buffers after the group matrix is built, left with its result array at
    what its four write-backs wrote. The projection's buffer is split in two half shares at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := (show (unscopedBufs c (V5 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (V5 m ρ c)) from split1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_last (V5 m ρ) c).trans ?_
    unfold Pipeline.ΦA
    iintro ⟨Hr, Hp⟩
    isplitl [Hp]; · iexact Hp
    isplitr; · iempintro
    iexact Hr
  hexit c := by
    have hjoin := (show iprop((pdats m ρ 1 c).arrays ((pdats m ρ 1 c).arrAt · cfg1.N)
        ∗ Pipeline.unscopedRest (Ix := Unit) (Name := ℕ) (U := UR sig nD τ) (Lvl := ℕ) spec1 c (V5 m ρ c)) ⊢ (unscopedBufs c (V6 m ρ c) : sProp 𝕄) from
      join1 (V5 m ρ) c (V6 m ρ c) ((dat1 (V5 m ρ) c).arrAt · cfg1.N) (hF1 m ρ c 0) (hF1 m ρ c 1) (hF1 m ρ c 2) (hF1 m ρ c 3) (hrest1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option backward.isDefEq.respectTransparency.types false in
/-- THE RUN. From any memory with zero counters every weakly fair execution of the program terminates, nothing
    faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m ρ c), (h c _ (mem_uc main_arg1 (by decide))).trans (W7_main_arg1 m ρ c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)), (h c _ (mem_uc main_arg0 (by decide))).trans (W7_main_arg0 m ρ c), (h c _ (mem_uc main_arg1 (by decide))).trans (W7_main_arg1 m ρ c)⟩) (run_all m ρ)

end Cert.KernelIdeal.Hand

end
-- ==== Proof.Spec.lean ====
/-
  The function both programs compute, stated once over the extended reals, with no program in sight.

  From `x : 512 × 1024` and `T : 1024 × 64 × 16`:
  * the weight is read flat, column `c` of it being `T[q, c / 16, c % 16]`;
  * the projection is `m[a, c] = ∑ q, x[a, q] · T[q, c / 16, c % 16]`;
  * group `g` of a row gathers the sixteen columns `16 g + k`, and the distance between rows `a` and `b` in
    that group is the sum over `k` of `|m[a, 16 g + k] − m[b, 16 g + k]|` (the absolute value as the larger of a
    number and its negative);
  * the feature is `feat[a, g] = ∑ b, exp (−dist a b g)`, the sum over all 512 rows `b`, `a` itself included.
-/
import Idealize.ShloMosaic.PureOps.Ideal
import Idealize.ShloMosaic.Lib.ValueIdx

noncomputable section

open scoped BigOperators

namespace Cert.L1

open Idealize.ShloMosaic Idealize.ShloMosaic.ValueIdx

/-- The absolute value on the extended reals: the larger of a number and its negative. -/
def eabs (z : EReal) : EReal := max z (-z)

/-- Column `16 g + k` of the flat weight. -/
def col (g : Fin 64) (k : Fin 16) : Fin 1024 := ⟨16 * g.val + k.val, by omega⟩

/-- The weight read flat: entry `(q, c)` is `T[q, c / 16, c % 16]`. -/
def tflat (T : (⟨3, ![1024, 64, 16]⟩ : Shape).Idx → EReal) (q c : Fin 1024) : EReal :=
  T (ix3 q (⟨c.val / 16, by omega⟩ : Fin 64) (⟨c.val % 16, by omega⟩ : Fin 16))

/-- The projection `m[a, c] = ∑ q, x[a, q] · T[q, c / 16, c % 16]`. -/
def proj (x : (⟨2, ![512, 1024]⟩ : Shape).Idx → EReal) (T : (⟨3, ![1024, 64, 16]⟩ : Shape).Idx → EReal)
    (a : Fin 512) (c : Fin 1024) : EReal :=
  ∑ q : Fin 1024, x (ix2 a q) * tflat T q c

/-- The distance between rows `a` and `b` within group `g`. -/
def dist (x : (⟨2, ![512, 1024]⟩ : Shape).Idx → EReal) (T : (⟨3, ![1024, 64, 16]⟩ : Shape).Idx → EReal)
    (a b : Fin 512) (g : Fin 64) : EReal :=
  ∑ k : Fin 16, eabs (proj x T a (col g k) - proj x T b (col g k))

/-- The feature `feat[a, g] = ∑ b, exp (−dist a b g)`. -/
def feat (x : (⟨2, ![512, 1024]⟩ : Shape).Idx → EReal) (T : (⟨3, ![1024, 64, 16]⟩ : Shape).Idx → EReal)
    (a : Fin 512) (g : Fin 64) : EReal :=
  ∑ b : Fin 512, Ideal.exp (-(dist x T a b g))

/-- The feature block as an array of shape 512 × 64. -/
def featArr (x : (⟨2, ![512, 1024]⟩ : Shape).Idx → EReal) (T : (⟨3, ![1024, 64, 16]⟩ : Shape).Idx → EReal) :
    (⟨2, ![512, 64]⟩ : Shape).Idx → EReal :=
  fun i => feat x T (i 0) (i 1)

end Cert.L1

end
-- ==== Proof.KerPay.lean ====
/-
  The arithmetic of the two kernel bodies, read at an index over the extended reals.

  * The projection kernel stores, at (p, c), the sum over q of x[p, q] · w[q, c]: the two roundings to the narrower
    format are the identity on the extended reals, and the matrix product accumulates into the zero block.
  * The distance kernel first stores the zero block, and then at each step adds to the accumulator, at (p, o), the sum
    over the 64 rows b of the step's block of exp (0 − ∑ c, |m[p, c] − m'[b, c]| · G[c, o]): the absolute differences of
    all 128 × 64 pairs of rows are laid out as the 8192 rows 64 p + b of one matrix, multiplied by G, and the result is
    read back as 128 × 64 × 128 and summed over its middle axis.
-/
import proofs.«177701_j45286135169752_2_alg».proof.Proof.Gen.KernelIdeal.Skeleton
import proofs.«177701_j45286135169752_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.L1.Pay

open Idealize.ShloMosaic Idealize.ShloMosaic.ValueIdx Cert.KernelIdeal Cert.KernelIdeal.Gen

/-- The block written at the first grid step is the zero block. -/
theorem pay_zero (j : S128x128.Idx) : k1_pay1 (F := Ideal) j = 0 := by
  unfold k1_pay1
  rw [shapeCast_self]
  exact Ideal.ofBits_zero_f32

/-! ## The projection kernel: a matrix product into the zero accumulator -/

theorem lhs0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The product of a 128 × 1024 block with a 1024 × 1024 matrix into the zero accumulator, at (p, c): the sum over
    the contracted coordinate. -/
theorem matmul0_apply (l : FVec Ideal S128x1024 .bf16) (r : FVec Ideal S1024x1024 .bf16) (p : Fin 128) (c : Fin 1024) :
    matmul dot_S128x1024_S1024x1024_S128x1024_1_0_0_1_n_n none l r (constant (F := Ideal) S128x1024 .f32 0x00000000#32) (ix2 p c)
      = ∑ q : Fin 1024, l (ix2 p q) * r (ix2 q c) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p c) ((contrEquiv1 dot_S128x1024_S1024x1024_S128x1024_1_0_0_1_n_n 1024 rfl rfl).symm k) = ix2 p k := funext fun a => Fin.ext (by
    match a with
    | ⟨0, _⟩ => exact lhs0 _ _
    | ⟨1, _⟩ => exact (lhs1 _ _).trans hk)
  have er : dot_S128x1024_S1024x1024_S128x1024_1_0_0_1_n_n.rhsIdx (ix2 p c) ((contrEquiv1 dot_S128x1024_S1024x1024_S128x1024_1_0_0_1_n_n 1024 rfl rfl).symm k) = ix2 k c := funext fun a => Fin.ext (by
    match a with
    | ⟨0, _⟩ => exact (rhs0 _ _).trans hk
    | ⟨1, _⟩ => exact rhs1 _ _)
  rw [el, er]

/-- The projection block at (p, c): the two roundings are the identity on the extended reals, so it is the sum over
    q of the products. -/
theorem pay_proj (v0 : Vec Ideal S128x1024 .f32) (v2 : Vec Ideal S1024x1024 .bf16) (p : Fin 128) (c : Fin 1024) :
    k0_pay1 (F := Ideal) v0 v2 (ix2 p c) = ∑ q : Fin 1024, v0 (ix2 p q) * v2 (ix2 q c) := by
  unfold k0_pay1
  rw [truncf_apply, shapeCast_self]
  refine (matmul0_apply _ _ p c).trans ?_
  rfl

/-! ## The distance kernel: the accumulation step -/

/-- The sum over the middle axis of a 128 × 64 × 128 block, at (p, o): the sum over that axis's 64 coordinates. -/
theorem sumMid_apply (src : FVec Ideal S128x64x128 .f32) (hφ : FKind.Formats .f32)
    (hacc : (0x00000000#32 : BitVec 32) = FKind.add.neutral .f32 hφ) (p o : Fin 128) :
    multiReduction (F := Ideal) .add [1] S128x128 src 0x00000000#32 reduces_S128x64x128_S128x128 hφ hacc (ix2 p o)
      = ∑ b : Fin 64, src (ix3 p b o) :=
  (Ideal.multiReduction_add_single src 0x00000000#32 reduces_S128x64x128_S128x128 hφ hacc (ix2 p o)).trans
    (Finset.sum_congr rfl fun b _ => congrArg src (funext fun a => Fin.ext (by
      match a with
      | ⟨0, _⟩ => rfl
      | ⟨1, _⟩ => rfl
      | ⟨2, _⟩ => rfl)))

/-- The exponential of zero minus y is the exponential of −y. -/
theorem expZeroSub_apply (y : FVec Ideal S128x64x128 .f32) (i : S128x64x128.Idx) :
    exp (subf (broadcast S128x64x128 (Scalar.ofBits (F := Ideal) .f32 0x00000000#32)) y) i = Ideal.exp (-(y i)) := by
  show Ideal.exp (Ideal.ofBits .f32 0x00000000#32 - y i) = _
  rw [Ideal.ofBits_zero_f32, zero_sub]

/-- An 8192 × 128 matrix read as 128 × 64 × 128: entry (p, b, o) is row 64 p + b, column o. -/
theorem unflat_apply (y : FVec Ideal S8192x128 .f32) (p : Fin 128) (b : Fin 64) (o : Fin 128) :
    shapeCast S128x64x128 y shapeCasts_S8192x128_S128x64x128 (ix3 p b o)
      = y (ix2 (⟨64 * p.val + b.val, by omega⟩ : Fin 8192) o) :=
  shapeCast_apply y shapeCasts_S8192x128_S128x64x128 _ _ (by
    rw [Shape.rowMajor_val_two, Shape.rowMajor_val_three]
    show (64 * p.val + b.val) * 128 + o.val = (p.val * 64 + b.val) * 128 + o.val
    omega)

/-- A 128 × 64 × 1024 block read as 8192 × 1024: row 64 p + b, column c is entry (p, b, c). -/
theorem flat_apply (y : FVec Ideal S128x64x1024 .bf16) (p : Fin 128) (b : Fin 64) (c : Fin 1024) :
    shapeCast S8192x1024 y shapeCasts_S128x64x1024_S8192x1024 (ix2 (⟨64 * p.val + b.val, by omega⟩ : Fin 8192) c)
      = y (ix3 p b c) :=
  shapeCast_apply y shapeCasts_S128x64x1024_S8192x1024 _ _ (by
    rw [Shape.rowMajor_val_two, Shape.rowMajor_val_three]
    show (p.val * 64 + b.val) * 1024 + c.val = (64 * p.val + b.val) * 1024 + c.val
    omega)

/-- Row p of a 128 × 1024 block repeated along a new middle axis of 64: entry (p, b, c) is entry (p, c). -/
theorem rowRep_apply (y : FVec Ideal S128x1024 .bf16) (p : Fin 128) (b : Fin 64) (c : Fin 1024) :
    broadcastTo S128x64x1024 (shapeCast S128x1x1024 y shapeCasts_S128x1024_S128x1x1024) broadcasts_S128x1x1024_S128x64x1024
      (ix3 p b c) = y (ix2 p c) :=
  (broadcastTo_apply _ broadcasts_S128x1x1024_S128x64x1024 (ix3 p b c) (ix3 p (0 : Fin 1) c) (fun a => match a with
    | ⟨0, _⟩ => by show p.val = if (128 : Nat) = 1 then 0 else p.val; rw [if_neg (by decide)]
    | ⟨1, _⟩ => by show 0 = if (1 : Nat) = 1 then 0 else b.val; rw [if_pos rfl]
    | ⟨2, _⟩ => by show c.val = if (1024 : Nat) = 1 then 0 else c.val; rw [if_neg (by decide)])).trans
  (shapeCast_apply y shapeCasts_S128x1024_S128x1x1024 _ _ (by
    rw [Shape.rowMajor_val_two, Shape.rowMajor_val_three]
    show p.val * 1024 + c.val = (p.val * 1 + 0) * 1024 + c.val
    omega))

/-- A 64 × 1024 block repeated along a new leading axis of 128: entry (p, b, c) is entry (b, c). -/
theorem blockRep_apply (y : FVec Ideal S64x1024 .bf16) (p : Fin 128) (b : Fin 64) (c : Fin 1024) :
    broadcastTo S128x64x1024 (shapeCast S1x64x1024 y shapeCasts_S64x1024_S1x64x1024) broadcasts_S1x64x1024_S128x64x1024
      (ix3 p b c) = y (ix2 b c) :=
  (broadcastTo_apply _ broadcasts_S1x64x1024_S128x64x1024 (ix3 p b c) (ix3 (0 : Fin 1) b c) (fun a => match a with
    | ⟨0, _⟩ => by show 0 = if (1 : Nat) = 1 then 0 else p.val; rw [if_pos rfl]
    | ⟨1, _⟩ => by show b.val = if (64 : Nat) = 1 then 0 else b.val; rw [if_neg (by decide)]
    | ⟨2, _⟩ => by show c.val = if (1024 : Nat) = 1 then 0 else c.val; rw [if_neg (by decide)])).trans
  (shapeCast_apply y shapeCasts_S64x1024_S1x64x1024 _ _ (by
    rw [Shape.rowMajor_val_two, Shape.rowMajor_val_three]
    show b.val * 1024 + c.val = (0 * 64 + b.val) * 1024 + c.val
    omega))

/-- The absolute differences of all pairs of rows, at (p, b, c). -/
theorem absDiff_apply (x : FVec Ideal S128x1024 .bf16) (y : FVec Ideal S64x1024 .bf16) (p : Fin 128) (b : Fin 64) (c : Fin 1024) :
    absf (subf
        (broadcastTo S128x64x1024 (shapeCast S128x1x1024 x shapeCasts_S128x1024_S128x1x1024) broadcasts_S128x1x1024_S128x64x1024)
        (broadcastTo S128x64x1024 (shapeCast S1x64x1024 y shapeCasts_S64x1024_S1x64x1024) broadcasts_S1x64x1024_S128x64x1024))
      (ix3 p b c) = Cert.L1.eabs (x (ix2 p c) - y (ix2 b c)) := by
  show max (_ - _) (-(_ - _)) = _
  rw [rowRep_apply x p b c, blockRep_apply y p b c]
  rfl

theorem lhsB0 (i : S8192x128.Idx) (q : dot_S8192x1024_S1024x128_S8192x128_1_0_0_1_n_n.contr.Idx) :
    (dot_S8192x1024_S1024x128_S8192x128_1_0_0_1_n_n.lhsIdx i q 0).val = (i 0).val := by
  unfold DotDims.lhsIdx
  rw [dif_neg (show ¬(0 : Fin S8192x1024.rank) ∈ dot_S8192x1024_S1024x128_S8192x128_1_0_0_1_n_n.lhsBatch by decide), dif_pos (show (0 : Fin S8192x1024.rank) ∈ dot_S8192x1024_S1024x128_S8192x128_1_0_0_1_n_n.lhsNonContracting by decide)]
  rfl
theorem lhsB1 (i : S8192x128.Idx) (q : dot_S8192x1024_S1024x128_S8192x128_1_0_0_1_n_n.contr.Idx) :
    (dot_S8192x1024_S1024x128_S8192x128_1_0_0_1_n_n.lhsIdx i q 1).val = (q ⟨0, by decide⟩).val :=
  dot_S8192x1024_S1024x128_S8192x128_1_0_0_1_n_n.lhsIdx_val_of_single rfl i q
theorem rhsB0 (i : S8192x128.Idx) (q : dot_S8192x1024_S1024x128_S8192x128_1_0_0_1_n_n.contr.Idx) :
    (dot_S8192x1024_S1024x128_S8192x128_1_0_0_1_n_n.rhsIdx i q 0).val = (q ⟨0, by decide⟩).val :=
  dot_S8192x1024_S1024x128_S8192x128_1_0_0_1_n_n.rhsIdx_val_of_single rfl i q
theorem rhsB1 (i : S8192x128.Idx) (q : dot_S8192x1024_S1024x128_S8192x128_1_0_0_1_n_n.contr.Idx) :
    (dot_S8192x1024_S1024x128_S8192x128_1_0_0_1_n_n.rhsIdx i q 1).val = (i 1).val := by
  unfold DotDims.rhsIdx
  rw [dif_neg (show ¬(1 : Fin S1024x128.rank) ∈ dot_S8192x1024_S1024x128_S8192x128_1_0_0_1_n_n.rhsBatch by decide), dif_pos (show (1 : Fin S1024x128.rank) ∈ dot_S8192x1024_S1024x128_S8192x128_1_0_0_1_n_n.rhsNonContracting by decide)]
  rfl

/-- The product of an 8192 × 1024 matrix with a 1024 × 128 matrix into the zero accumulator, at (r, o): the sum over
    the contracted coordinate. -/
theorem matmul1_apply (l : FVec Ideal S8192x1024 .bf16) (r : FVec Ideal S1024x128 .bf16) (row : Fin 8192) (o : Fin 128) :
    matmul dot_S8192x1024_S1024x128_S8192x128_1_0_0_1_n_n none l r (constant (F := Ideal) S8192x128 .f32 0x00000000#32) (ix2 row o)
      = ∑ c : Fin 1024, l (ix2 row c) * r (ix2 c o) := by
  simp only [matmul]
  rw [Ideal.matmul_constant_zero_apply, ← Equiv.sum_comp (contrEquiv1 dot_S8192x1024_S1024x128_S8192x128_1_0_0_1_n_n 1024 rfl rfl).symm]
  refine Finset.sum_congr rfl fun k _ => ?_
  have hk := contrEquiv1_symm_val dot_S8192x1024_S1024x128_S8192x128_1_0_0_1_n_n 1024 rfl rfl k
  have el : dot_S8192x1024_S1024x128_S8192x128_1_0_0_1_n_n.lhsIdx (ix2 row o) ((contrEquiv1 dot_S8192x1024_S1024x128_S8192x128_1_0_0_1_n_n 1024 rfl rfl).symm k) = ix2 row k := funext fun a => Fin.ext (by
    match a with
    | ⟨0, _⟩ => exact lhsB0 _ _
    | ⟨1, _⟩ => exact (lhsB1 _ _).trans hk)
  have er : dot_S8192x1024_S1024x128_S8192x128_1_0_0_1_n_n.rhsIdx (ix2 row o) ((contrEquiv1 dot_S8192x1024_S1024x128_S8192x128_1_0_0_1_n_n 1024 rfl rfl).symm k) = ix2 k o := funext fun a => Fin.ext (by
    match a with
    | ⟨0, _⟩ => exact (rhsB0 _ _).trans hk
    | ⟨1, _⟩ => exact rhsB1 _ _)
  rw [el, er]

/-- The accumulation step at (p, o): the accumulator plus, over the 64 rows b of the step's block, the exponential of
    minus the sum over c of |m[p, c] − m'[b, c]| · G[c, o]. -/
theorem pay_acc (v3 : Vec Ideal S128x1024 .bf16) (v5 : Vec Ideal S64x1024 .bf16) (v14 : Vec Ideal S1024x128 .bf16)
    (v22 : Vec Ideal S128x128 .f32) (p : Fin 128) (o : Fin 128) :
    k1_pay2 (F := Ideal) v3 v5 v14 v22 (ix2 p o)
      = v22 (ix2 p o) + ∑ b : Fin 64, Ideal.exp (-(∑ c : Fin 1024, Cert.L1.eabs (v3 (ix2 p c) - v5 (ix2 b c)) * v14 (ix2 c o))) := by
  unfold k1_pay2
  rw [shapeCast_self, addf_apply]
  refine congrArg (v22 (ix2 p o) + ·) ?_
  refine (sumMid_apply _ _ _ p o).trans ?_
  refine Finset.sum_congr rfl fun b _ => ?_
  refine (expZeroSub_apply _ _).trans ?_
  refine congrArg (fun z => Ideal.exp (-z)) ?_
  refine (unflat_apply _ p b o).trans ?_
  refine (matmul1_apply _ _ _ o).trans ?_
  refine Finset.sum_congr rfl fun c _ => ?_
  rw [shapeCast_self v14, shapeCast_self v3, shapeCast_self v5]
  refine congrArg (· * v14 (ix2 c o)) ?_
  refine (flat_apply _ p b c).trans ?_
  exact absDiff_apply v3 v5 p b c

end Cert.L1.Pay

end
-- ==== Proof.KI.Val0.lean ====
/-
  The first kernel region's result, as one function of the operands.

  The grid has four points; point t reads rows 128 t … 128 t + 127 of the first operand and the whole second operand,
  and writes rows 128 t … 128 t + 127 of the result with the product of the two blocks. Each element the point writes is
  therefore the projection's entry at the element's place in the array; the four row blocks tile the 512 rows, so after
  the region the result array is the projection of the operands, entry by entry.
-/
import proofs.«177701_j45286135169752_2_alg».proof.Proof.KI.R0
import proofs.«177701_j45286135169752_2_alg».proof.Proof.KerPay
import Idealize.ShloMosaic.Lib.Pipeline.Value

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The projection of every row: entry (a, c) is the sum over q of X[a, q] · W[q, c]. -/
def projArr (X : S512x1024.Idx → EReal) (Wt : S1024x1024.Idx → EReal) : S512x1024.Idx → EReal :=
  fun i => ∑ q : Fin 1024, X (ix2 (i 0) q) * Wt (ix2 q (i 1))

theorem hz : (![0, 0] : Fin 2 → Nat) = fun _ => 0 := funext fun a => by fin_cases a <;> rfl

/-- The block indices over the grid: the row blocks of the first operand and of the result move with the point, the
    second operand is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body leaves in the output buffer, at (p, c): the sum over q of the products of the two input blocks. -/
theorem out_apply (x0 : Vec Ideal S128x1024 .f32) (x1 : Vec Ideal S1024x1024 .bf16) (p : Fin 128) (cc : Fin 1024) :
    out0_2 x0 x1 (ix2 p cc) = ∑ q : Fin 1024, x0 (ix2 p q) * x1 (ix2 q cc) := by
  unfold out0_2
  rw [View.canon_unit_zero hz]
  simp only [View.ld_unit_zero (S := S128x1024) hz, View.ld_unit_zero (S := S1024x1024) hz]
  exact Cert.L1.Pay.pay_proj x0 x1 p cc

/-- Window 0's block at point t is rows 128 t … 128 t + 127 of the first operand. -/
theorem iblk0_0_apply (c : Dev nD) (t : Fin cfg0.N) (p : Fin 128) (q : Fin 1024) (r : Fin 512) (hr : r.val = 128 * t.val + p.val) :
    (iblk0 V c 0 t : Vec Ideal S128x1024 .f32) (ix2 p q) = (V c main_arg0 : S512x1024.Idx → EReal) (ix2 r q) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 1024 + 1 * q.val = q.val; rw [e1]; omega

/-- Window 1's block at every point is the whole second operand. -/
theorem iblk0_1_apply (c : Dev nD) (t : Fin cfg0.N) (q : Fin 1024) (cc : Fin 1024) :
    (iblk0 V c 1 t : Vec Ideal S1024x1024 .bf16) (ix2 q cc) = (V c main_v1 : S1024x1024.Idx → EReal) (ix2 q cc) := by
  obtain ⟨-, -, e0, e1, -, -⟩ := idx_facts t
  unfold iblk0
  rw [View.read_apply]
  show V c main_v1 _ = V c main_v1 _
  congr 1
  funext a
  apply Fin.ext
  match a with
  | ⟨0, _⟩ => show win0_1.index t (0 : Fin 2) * 1024 + 1 * q.val = q.val; rw [e0]; omega
  | ⟨1, _⟩ => show win0_1.index t (1 : Fin 2) * 1024 + 1 * cc.val = cc.val; rw [e1]; omega

/-- The body's result at one element against the projection at the element's place in the array, from what the
    two input blocks are of the operands. -/
theorem point_eq (X : S512x1024.Idx → EReal) (Wt : S1024x1024.Idx → EReal)
    (x0 : Vec Ideal S128x1024 .f32) (x1 : Vec Ideal S1024x1024 .bf16) (tv : Nat) (j : S128x1024.Idx) (i : S512x1024.Idx)
    (hi0 : (i 0).val = 128 * tv + (j 0).val) (hi1 : (i 1).val = (j 1).val)
    (h0 : ∀ (p : Fin 128) (q : Fin 1024) (r : Fin 512), r.val = 128 * tv + p.val → x0 (ix2 p q) = X (ix2 r q))
    (h1 : ∀ q cc : Fin 1024, x1 (ix2 q cc) = Wt (ix2 q cc)) :
    out0_2 x0 x1 j = projArr X Wt i := by
  refine (congrArg (out0_2 x0 x1) (eq_ix2 j)).trans ?_
  refine (out_apply x0 x1 (j 0) (j 1)).trans ?_
  unfold projArr
  refine Finset.sum_congr rfl fun q _ => ?_
  have e1 : (j 1 : Fin 1024) = i 1 := Fin.ext hi1.symm
  rw [h0 (j 0) q (i 0) hi0, h1 q (j 1), e1]

/-- What point t writes back is block t of the projection of the operands as the region finds them. -/
theorem flushed_eq (c : Dev nD) (t : Fin cfg0.N) :
    (dat0 V c).flushed 2 t
      = ((cfg0.win 2).blk t).view.read (Elt Ideal) (projArr (V c main_arg0) (V c main_v1)) := by
  show (cfg0.win 2).cut (grid0.coords t) ((dat0 V c).after 2 t) = _
  rw [after0_2]
  obtain ⟨-, -, -, -, e0, e1⟩ := idx_facts t
  funext j
  show out0_2 (iblk0 V c 0 t) (iblk0 V c 1 t) j = projArr (V c main_arg0) (V c main_v1) (((cfg0.win 2).blk t).view.emb j)
  refine point_eq (V c main_arg0) (V c main_v1) (iblk0 V c 0 t) (iblk0 V c 1 t) t.val j (((cfg0.win 2).blk t).view.emb j) ?_ ?_
    (fun p q r hr => iblk0_0_apply V c t p q r hr) (fun q cc => iblk0_1_apply V c t q cc)
  · show win0_2.index t (0 : Fin 2) * 128 + 1 * (j 0).val = 128 * t.val + (j 0).val
    rw [e0]; omega
  · show win0_2.index t (1 : Fin 2) * 1024 + 1 * (j 1).val = (j 1).val
    rw [e1]; omega

/-- An index of the result array is in point t's block iff each coordinate is in the block's range on its axis. -/
theorem mem_blk (t : Fin cfg0.N) (i : S512x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v2).slice (win0_2.rect t)).set ↔ _
  rw [View.set_slice_whole, Rect.mem_set_unit]
  exact Iff.rfl

/-- Every index of the result array is in the block of the point its row falls in. -/
theorem cover (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  obtain ⟨t, ht⟩ : ∃ t : Fin cfg0.N, t.val = (i 0).val / 128 := ⟨⟨(i 0).val / 128, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    rw [e0, ht]; omega
  | ⟨1, _⟩ =>
    show win0_2.index t (1 : Fin 2) * 1024 ≤ (i 1).val ∧ (i 1).val < win0_2.index t (1 : Fin 2) * 1024 + 1024
    rw [e1]; omega

/-- After the first kernel region the result array holds the projection of the operands as the region found them. -/
theorem region0_value (c : Dev nD) :
    ((dat0 (F := Ideal) V c).arrAt 2 cfg0.N : S512x1024.Idx → EReal) = projArr (V c main_arg0) (V c main_v1) :=
  (dat0 V c).arrAt_eq_of_cover 2 (projArr (V c main_arg0) (V c main_v1)) (fun t _ => flushed_eq V c t) cover

end Cert.KernelIdeal.HandVal

end
-- ==== Proof.HostG.lean ====
/-
  The 0/1 group matrix the host program writes from constants, read index by index, and the sum it selects.

  The matrix `G : 1024 × 128` has `G[c, o] = 1` exactly when `o < 64` and `c / 16 = o`, and `0` elsewhere:
  * the host builds it as: the counter `0 … 1023` divided by `16` with rounding towards minus infinity (a signed
    division, then a correction by one when the signs differ and the remainder is not zero — never taken here, both
    words being non-negative), compared for equality with the counter `0 … 63` along the other axis, the one-bit
    answer read as a number, and sixty-four columns of zeros appended;
  * multiplying a row `d` of 1024 extended reals by column `g < 64` of `G` and summing keeps exactly the sixteen
    entries `d (16 g + k)`, because `x * 0 = 0` and `x * 1 = x` hold for every extended real.
-/
import proofs.«177701_j45286135169752_2_alg».proof.Proof.Gen.KernelIdeal.Launch
import proofs.«177701_j45286135169752_2_alg».proof.Proof.Spec
import Idealize.ShloMosaic.Lib.StableHlo.Run
import Idealize.ShloMosaic.Lib.ValueIdx
import Idealize.ShloMosaic.Lib.IdealHost
import Idealize.ShloMosaic.Lib.Pipeline.Value

noncomputable section

open scoped BigOperators

namespace Cert.L1.G

open Idealize.ShloMosaic Idealize.ShloMosaic.ValueIdx Cert.KernelIdeal Cert.KernelIdeal.Gen

/-- The group matrix: `1` at `(c, o)` when `o < 64` and `c / 16 = o`, otherwise `0`. -/
def gmat : (⟨2, ![1024, 128]⟩ : Shape).Idx → EReal :=
  fun i => if (i 1).val < 64 ∧ (i 0).val / 16 = (i 1).val then 1 else 0

/-- The columns `0 … 1023` are the pairs (group, place in the group): column `16 a + k`. -/
def grp : Fin 64 × Fin 16 ≃ Fin 1024 where
  toFun p := ⟨16 * p.1.val + p.2.val, by omega⟩
  invFun c := (⟨c.val / 16, by omega⟩, ⟨c.val % 16, by omega⟩)
  left_inv p := by
    rcases p with ⟨a, k⟩
    refine Prod.ext (Fin.ext ?_) (Fin.ext ?_)
    · show (16 * a.val + k.val) / 16 = a.val; omega
    · show (16 * a.val + k.val) % 16 = k.val; omega
  right_inv c := by
    refine Fin.ext ?_
    show 16 * (c.val / 16) + c.val % 16 = c.val; omega

/-- Column `g` of the group matrix selects the sixteen entries of group `g`. -/
theorem group_sum (d : Fin 1024 → EReal) (g : Fin 64) :
    (∑ c : Fin 1024, d c * gmat (ix2 c (⟨g.val, by omega⟩ : Fin 128))) = ∑ k : Fin 16, d (Cert.L1.col g k) := by
  rw [← Equiv.sum_comp grp, Fintype.sum_prod_type, Finset.sum_eq_single g]
  · refine Finset.sum_congr rfl fun k _ => ?_
    have h : gmat (ix2 (grp (g, k)) (⟨g.val, by omega⟩ : Fin 128)) = 1 := by
      unfold gmat
      rw [if_pos]
      refine ⟨?_, ?_⟩
      · show g.val < 64; omega
      · show (16 * g.val + k.val) / 16 = g.val; omega
    rw [h, mul_one]
    rfl
  · intro a _ hne
    refine Finset.sum_eq_zero fun k _ => ?_
    have h : gmat (ix2 (grp (a, k)) (⟨g.val, by omega⟩ : Fin 128)) = 0 := by
      unfold gmat
      rw [if_neg]
      rintro ⟨_, h2⟩
      apply hne
      refine Fin.ext ?_
      have h3 : (16 * a.val + k.val) / 16 = g.val := h2
      omega
    rw [h, mul_zero]
  · intro h
    exact absurd (Finset.mem_univ g) h

/-! ## Words: the counter divided by sixteen, rounding towards minus infinity -/

/-- The sign of a word as the host program computes it: `0`, `-1` or `1`. -/
def sgnw (x : BitVec 32) : BitVec 32 := if x = 0 then 0 else if x.msb then -1 else 1

/-- A word below `1024` read back is the number it was made from. -/
theorem toNat_small (n : Nat) (hn : n < 1024) : (BitVec.ofNat 32 n).toNat = n := by
  rw [BitVec.toNat_ofNat]
  exact Nat.mod_eq_of_lt (by omega)

/-- A word below `1024` is not negative. -/
theorem msb_small (n : Nat) (hn : n < 1024) : (BitVec.ofNat 32 n).msb = false := by
  rw [BitVec.msb_eq_false_iff_two_mul_lt, toNat_small n hn]
  omega

/-- The signed quotient of a word below `1024` by `16` is the quotient of the numbers. -/
theorem sdiv16 (n : Nat) (hn : n < 1024) : (BitVec.ofNat 32 n).sdiv 16#32 = BitVec.ofNat 32 (n / 16) := by
  rw [BitVec.sdiv_eq, msb_small n hn, show (16#32 : BitVec 32).msb = false from rfl]
  refine BitVec.eq_of_toNat_eq ?_
  show (BitVec.ofNat 32 n / 16#32).toNat = _
  rw [BitVec.toNat_udiv, toNat_small n hn, toNat_small (n / 16) (by omega)]
  rfl

/-- The signed remainder of a word below `1024` by `16` is the remainder of the numbers. -/
theorem srem16 (n : Nat) (hn : n < 1024) : (BitVec.ofNat 32 n).srem 16#32 = BitVec.ofNat 32 (n % 16) := by
  rw [BitVec.srem_eq, msb_small n hn, show (16#32 : BitVec 32).msb = false from rfl]
  refine BitVec.eq_of_toNat_eq ?_
  show (BitVec.ofNat 32 n % 16#32).toNat = _
  rw [BitVec.toNat_umod, toNat_small n hn, toNat_small (n % 16) (by omega)]
  rfl

/-- Dividing by `16` meets no corner of the signed division: the divisor is neither `0` nor `-1`. -/
theorem no_corner (x : BitVec 32) : ¬ IntOp.SDivCorner x 16#32 := by
  rintro (h | ⟨_, h⟩)
  · exact absurd h (by decide)
  · exact absurd h (by decide)

/-- The host's signed quotient of a word below `1024` by `16`. -/
theorem divsi16 (n : Nat) (hn : n < 1024) : IntOp.divsi .host (BitVec.ofNat 32 n) 16#32 = BitVec.ofNat 32 (n / 16) := by
  unfold IntOp.divsi
  rw [if_neg (no_corner _)]
  exact sdiv16 n hn

/-- The host's signed remainder of a word below `1024` by `16`. -/
theorem remsi16 (n : Nat) (hn : n < 1024) : IntOp.remsi .host (BitVec.ofNat 32 n) 16#32 = BitVec.ofNat 32 (n % 16) := by
  unfold IntOp.remsi
  rw [if_neg (no_corner _)]
  exact srem16 n hn

/-- The correction of the rounded-towards-zero quotient is never taken on `0 … 1023`: either the dividend is
    `0`, and then the remainder is `0`, or it is positive like the divisor, and then the signs agree. -/
theorem no_correction (n : Nat) (hn : n < 1024) :
    IntOp.andi (IntOp.cmpi .ne (sgnw (BitVec.ofNat 32 n)) (sgnw 16#32))
      (IntOp.cmpi .ne (IntOp.remsi .host (BitVec.ofNat 32 n) 16#32) 0#32) = 0#1 := by
  rcases Nat.eq_zero_or_pos n with h0 | hpos
  · subst h0
    decide
  · have hne : BitVec.ofNat 32 n ≠ 0 := by
      intro h
      have h2 := congrArg BitVec.toNat h
      rw [toNat_small n hn] at h2
      exact absurd h2 (by show ¬ n = 0; omega)
    have hs : sgnw (BitVec.ofNat 32 n) = 1 := by
      unfold sgnw
      rw [if_neg hne, msb_small n hn]
      rfl
    rw [hs, show sgnw 16#32 = 1 from by decide, show IntOp.cmpi .ne (1 : BitVec 32) 1 = 0#1 from by decide]
    exact BitVec.zero_and

/-- The counter divided by sixteen towards minus infinity, as the host program spells it on words. -/
theorem floorDiv16_word (n : Nat) (hn : n < 1024) :
    Scalar.select
      (IntOp.andi (IntOp.cmpi .ne (sgnw (BitVec.ofNat 32 n)) (sgnw 16#32))
        (IntOp.cmpi .ne (IntOp.remsi .host (BitVec.ofNat 32 n) 16#32) 0#32))
      (IntOp.subi (IntOp.divsi .host (BitVec.ofNat 32 n) 16#32) 1#32)
      (IntOp.divsi .host (BitVec.ofNat 32 n) 16#32)
    = BitVec.ofNat 32 (n / 16) := by
  rw [no_correction n hn, select_zero, divsi16 n hn]

/-- Two words made from numbers below `1024` are equal exactly when the numbers are; the one-bit answer of the
    comparison, read as a number, is `1` or `0` accordingly. -/
theorem cmpi_eq_small (a b : Nat) (ha : a < 1024) (hb : b < 1024) :
    (IntOp.cmpi .eq (BitVec.ofNat 32 a) (BitVec.ofNat 32 b)).toNat = if a = b then 1 else 0 := by
  have hiff : (BitVec.ofNat 32 a = BitVec.ofNat 32 b) ↔ a = b := by
    constructor
    · intro h
      have h2 := congrArg BitVec.toNat h
      rwa [toNat_small a ha, toNat_small b hb] at h2
    · intro h; rw [h]
  show (BitVec.ofBool (BitVec.ofNat 32 a == BitVec.ofNat 32 b)).toNat = _
  by_cases h : a = b
  · rw [if_pos h, h]
    simp
  · rw [if_neg h]
    have : (BitVec.ofNat 32 a == BitVec.ofNat 32 b) = false := by
      rw [beq_eq_false_iff_ne]
      exact fun h' => h (hiff.mp h')
    rw [this]
    rfl

/-! ## The host program's arrays, operation by operation -/

/-- The counter `0 … 1023`. -/
def counter : IVec S1024 32 := iotaInDim S1024 32 0
/-- The divisor `16`, a scalar, and broadcast to the counter's shape. -/
def sixteen0 : IVec S_ 32 := id (constantI S_ 32 16#32)
def sixteen : IVec S1024 32 := broadcastInDim S1024 ![] bcast_S_S1024 sixteen0
/-- The quotient rounded towards zero. -/
def quo : IVec S1024 32 := Host.divsi counter sixteen
/-- "The signs differ and the remainder is not zero". -/
def corr : IVec S1024 1 :=
  andi (cmpi .ne (signi counter) (broadcastInDim S1024 ![] bcast_S_S1024 (signi sixteen0)))
    (cmpi .ne (Host.remsi counter sixteen) (broadcastInDim S1024 ![] bcast_S_S1024 (constantI S_ 32 0#32)))
/-- The quotient rounded towards minus infinity. -/
def fdiv : IVec S1024 32 :=
  select corr (subi quo (broadcastInDim S1024 ![] bcast_S_S1024 (constantI S_ 32 1#32))) quo
/-- The first sixty-four columns: "the counter over sixteen equals the column", as a number. -/
def gleft : FVec Ideal S1024x64 .bf16 :=
  uitofp .bf16
    (cmpi .eq
      (broadcastInDim S1024x64 ![0, 1] bcast_S1024x1_S1024x64_0_1 (broadcastInDim S1024x1 ![0] bcast_S1024_S1024x1_0 fdiv))
      (broadcastInDim S1024x64 ![0, 1] bcast_S1x64_S1024x64_0_1 (broadcastInDim S1x64 ![1] bcast_S64_S1x64_1 (iotaInDim S64 32 0))))
/-- The last sixty-four columns: zeros. -/
def gright : FVec Ideal S1024x64 .bf16 :=
  broadcastInDim S1024x64 ![] bcast_S_S1024x64 (constant (F := Ideal) S_ .bf16 0x0000#16)

/-- What the three stretches of host operations leave in the group matrix's buffer, whatever the buffers held
    before: they read nothing they did not write. -/
theorem host_term (V : Valuation τ sig (Elt Ideal)) :
    (StableHlo.after (hostOps1_2 (F := Ideal)) (StableHlo.after (hostOps1_1 (F := Ideal)) (StableHlo.after (hostOps1 (F := Ideal)) V)) (Proc.devRef .tc main_v13) : S1024x128.Idx → EReal)
      = concatenate S1024x128 1 [⟨S1024x64, gleft⟩, ⟨S1024x64, gright⟩] concatenates_S1024x64_S1024x64_S1024x128_d1 := by
  simp only [hostOps1_2, hostOps1_1, hostOps1]
  after_results
  rfl

/-! ## The arrays read at an index -/

/-- The quotient rounded towards minus infinity at row `c` is the word of `c / 16`. -/
theorem fdiv_apply (c : Fin 1024) : fdiv (ix1 c) = BitVec.ofNat 32 (c.val / 16) := by
  have hb : ∀ x : IVec S_ 32, broadcastInDim S1024 ![] bcast_S_S1024 x (ix1 c) = x ix0 :=
    fun x => broadcastInDim_scalar_apply _ x _
  show Scalar.select
      (IntOp.andi
        (IntOp.cmpi .ne (sgnw (BitVec.ofNat 32 c.val)) (broadcastInDim S1024 ![] bcast_S_S1024 (signi sixteen0) (ix1 c)))
        (IntOp.cmpi .ne (IntOp.remsi .host (BitVec.ofNat 32 c.val) (broadcastInDim S1024 ![] bcast_S_S1024 sixteen0 (ix1 c)))
          (broadcastInDim S1024 ![] bcast_S_S1024 (constantI S_ 32 0#32) (ix1 c))))
      (IntOp.subi (IntOp.divsi .host (BitVec.ofNat 32 c.val) (broadcastInDim S1024 ![] bcast_S_S1024 sixteen0 (ix1 c)))
        (broadcastInDim S1024 ![] bcast_S_S1024 (constantI S_ 32 1#32) (ix1 c)))
      (IntOp.divsi .host (BitVec.ofNat 32 c.val) (broadcastInDim S1024 ![] bcast_S_S1024 sixteen0 (ix1 c))) = _
  simp only [hb]
  exact floorDiv16_word c.val c.isLt

-- from here on the rounded-down quotient is read only through `fdiv_apply`
attribute [local irreducible] fdiv
/-- The first sixty-four columns at `(c, o)`: `1` when `c / 16 = o`, otherwise `0`. -/
theorem gleft_apply (c : Fin 1024) (o : Fin 64) :
    gleft (ix2 c o) = if c.val / 16 = o.val then 1 else 0 := by
  have e1 : broadcastInDim S1024x64 ![0, 1] bcast_S1024x1_S1024x64_0_1
      (broadcastInDim S1024x1 ![0] bcast_S1024_S1024x1_0 fdiv) (ix2 c o) = fdiv (ix1 c) := by
    refine (broadcastInDim_apply ![0, 1] bcast_S1024x1_S1024x64_0_1 _ (ix2 c o) (ix2 c (0 : Fin 1)) ?_).trans ?_
    · intro a
      match a with
      | ⟨0, _⟩ => rfl
      | ⟨1, _⟩ => rfl
    · refine broadcastInDim_apply ![0] bcast_S1024_S1024x1_0 fdiv (ix2 c (0 : Fin 1)) (ix1 c) ?_
      intro a
      match a with
      | ⟨0, _⟩ => rfl
  have e2 : broadcastInDim S1024x64 ![0, 1] bcast_S1x64_S1024x64_0_1
      (broadcastInDim S1x64 ![1] bcast_S64_S1x64_1 (iotaInDim S64 32 0)) (ix2 c o) = BitVec.ofNat 32 o.val := by
    refine (broadcastInDim_apply ![0, 1] bcast_S1x64_S1024x64_0_1 _ (ix2 c o) (ix2 (0 : Fin 1) o) ?_).trans ?_
    · intro a
      match a with
      | ⟨0, _⟩ => rfl
      | ⟨1, _⟩ => rfl
    · refine (broadcastInDim_apply ![1] bcast_S64_S1x64_1 (iotaInDim S64 32 0) (ix2 (0 : Fin 1) o) (ix1 o) ?_).trans ?_
      · intro a
        match a with
        | ⟨0, _⟩ => rfl
      · rfl
  show (((IntOp.cmpi .eq
      (broadcastInDim S1024x64 ![0, 1] bcast_S1024x1_S1024x64_0_1 (broadcastInDim S1024x1 ![0] bcast_S1024_S1024x1_0 fdiv) (ix2 c o))
      (broadcastInDim S1024x64 ![0, 1] bcast_S1x64_S1024x64_0_1 (broadcastInDim S1x64 ![1] bcast_S64_S1x64_1 (iotaInDim S64 32 0)) (ix2 c o))).toNat : ℝ) : EReal) = _
  rw [e1, e2, fdiv_apply, cmpi_eq_small (c.val / 16) o.val (by omega) (by omega)]
  by_cases h : c.val / 16 = o.val
  · rw [if_pos h, if_pos h]; norm_num
  · rw [if_neg h, if_neg h]; norm_num

/-- The last sixty-four columns are zero. -/
theorem gright_apply (j : S1024x64.Idx) : gright j = 0 := by
  show broadcastInDim S1024x64 ![] bcast_S_S1024x64 (constant (F := Ideal) S_ .bf16 0x0000#16) j = 0
  rw [broadcastInDim_scalar_apply]
  exact Ideal.ofBits_zero_bf16

/-! ## The buffer is the group matrix -/

/-- The three stretches of host operations leave the group matrix in its buffer, whatever the buffers held before. -/
theorem host_gmat (V : Valuation τ sig (Elt Ideal)) :
    (StableHlo.after (hostOps1_2 (F := Ideal)) (StableHlo.after (hostOps1_1 (F := Ideal)) (StableHlo.after (hostOps1 (F := Ideal)) V)) (Proc.devRef .tc main_v13) : S1024x128.Idx → EReal) = gmat := by
  refine (host_term V).trans ?_
  funext i
  obtain ⟨c, o, rfl⟩ : ∃ (c : Fin 1024) (o : Fin 128), i = ix2 c o := ⟨i 0, i 1, eq_ix2 i⟩
  by_cases ho : o.val < 64
  · -- a column of the first piece
    have hl := concatenate_pair_apply_left (t := S1024x128) (s₁ := S1024x64) (s₂ := S1024x64) 1 gleft gright
      concatenates_S1024x64_S1024x64_S1024x128_d1 (ix2 c o) rfl (ix2 c (⟨o.val, ho⟩ : Fin 64)) (fun b => by
        match b with
        | ⟨0, _⟩ => rfl
        | ⟨1, _⟩ => rfl)
    rw [hl, gleft_apply]
    show (if c.val / 16 = o.val then (1 : EReal) else 0) = if o.val < 64 ∧ c.val / 16 = o.val then 1 else 0
    by_cases h : c.val / 16 = o.val
    · rw [if_pos h, if_pos ⟨ho, h⟩]
    · rw [if_neg h, if_neg (fun hh => h hh.2)]
  · -- a column of the second piece: zero on both sides
    have hr := concatenate_pair_apply_right (t := S1024x128) (s₁ := S1024x64) (s₂ := S1024x64) 1 gleft gright
      concatenates_S1024x64_S1024x64_S1024x128_d1 (ix2 c o) rfl rfl (ix2 c (⟨o.val - 64, by omega⟩ : Fin 64))
      (fun b hb => by
        match b with
        | ⟨0, _⟩ => rfl
        | ⟨1, _⟩ => exact absurd rfl hb)
      (by show (o.val - 64) + 64 = o.val; omega)
    rw [hr, gright_apply]
    show (0 : EReal) = if o.val < 64 ∧ c.val / 16 = o.val then 1 else 0
    rw [if_neg (fun hh => ho hh.1)]

end Cert.L1.G

end
-- ==== Proof.RefFeat.lean ====
/-
  The reference program computes the feature array of the specification.
-/
import proofs.«177701_j45286135169752_2_alg».proof.Proof.Gen.ReferenceIdeal.Read
import proofs.«177701_j45286135169752_2_alg».proof.Proof.Spec

noncomputable section

open scoped BigOperators

namespace Cert.L1.Ref

open Idealize.ShloMosaic Idealize.ShloMosaic.ValueIdx Cert.ReferenceIdeal Cert.ReferenceIdeal.Read

/-- The absolute value of a difference does not depend on the order of subtraction; infinities included. -/
theorem eabs_sub_comm (a b : EReal) : Cert.L1.eabs (a - b) = Cert.L1.eabs (b - a) := by
  unfold Cert.L1.eabs
  by_cases h : a = b
  · rw [h]
  · have h1 : a ≠ ⊥ ∨ b ≠ ⊥ := by
      by_contra hc
      rw [not_or, not_not, not_not] at hc
      exact h (hc.1.trans hc.2.symm)
    have h2 : a ≠ ⊤ ∨ b ≠ ⊤ := by
      by_contra hc
      rw [not_or, not_not, not_not] at hc
      exact h (hc.1.trans hc.2.symm)
    have e1 : -(a - b) = b - a := by rw [EReal.neg_sub h1 h2, add_comm, ← sub_eq_add_neg]
    have e2 : -(b - a) = a - b := by rw [EReal.neg_sub h1.symm h2.symm, add_comm, ← sub_eq_add_neg]
    rw [e1, e2, max_comm]

/-- A sum over 512 rows is the sum over 8 blocks of 64 rows. -/
theorem sum_rows (f : Fin 512 → EReal) :
    (∑ j : Fin 8, ∑ b : Fin 64, f ⟨64 * j.val + b.val, by omega⟩) = ∑ b : Fin 512, f b := by
  rw [← Finset.sum_product', Finset.univ_product_univ]
  refine Fintype.sum_equiv (finProdFinEquiv (m := 8) (n := 64) |>.trans (finCongr (by norm_num))) _ _ ?_
  rintro ⟨j, b⟩
  refine congrArg f (Fin.ext ?_)
  simp [finProdFinEquiv]
  omega

/-- The reference's matrix product at row `a`, column `c` is the projection. -/
theorem v1_at (x0 : (⟨Cert.ReferenceIdeal.S512x1024, .f32⟩ : BufTy).Contents (Elt Ideal))
    (x1 : (⟨Cert.ReferenceIdeal.S1024x64x16, .f32⟩ : BufTy).Contents (Elt Ideal)) (a : Fin 512) (c : Fin 1024) :
    val_main_v1 (F := Ideal) x0 x1 (ix2 a c) = Cert.L1.proj x0 x1 a c := by
  rw [val_main_v1_apply]
  unfold Cert.L1.proj
  refine Finset.sum_congr rfl fun q _ => ?_
  have hl : lidx_main_v1 (ix2 a c) q = ix2 a q := by
    funext d
    match d with
    | ⟨0, _⟩ => rfl
    | ⟨1, _⟩ => rfl
  rw [hl, val_main_v0_apply]
  refine congrArg (x0 (ix2 a q) * ·) ?_
  unfold Cert.L1.tflat
  refine congrArg x1 ?_
  funext d
  match d with
  | ⟨0, _⟩ => exact Fin.ext (by show (q.val * 1024 + c.val) / 1024 = q.val; omega)
  | ⟨1, _⟩ => exact Fin.ext (by show (q.val * 1024 + c.val) / 16 % 64 = c.val / 16; omega)
  | ⟨2, _⟩ => exact Fin.ext (by show (q.val * 1024 + c.val) % 16 = c.val % 16; omega)

/-- The reshaped product at `[a, g, k]` is the projection at column `16 g + k`. -/
theorem v2_at (x0 : (⟨Cert.ReferenceIdeal.S512x1024, .f32⟩ : BufTy).Contents (Elt Ideal))
    (x1 : (⟨Cert.ReferenceIdeal.S1024x64x16, .f32⟩ : BufTy).Contents (Elt Ideal)) (a : Fin 512) (g : Fin 64) (k : Fin 16) :
    val_main_v2 (F := Ideal) x0 x1 (ix3 a g k) = Cert.L1.proj x0 x1 a (Cert.L1.col g k) := by
  rw [val_main_v2_apply]
  have h : idx_main_v2 (ix3 a g k) = ix2 a (Cert.L1.col g k) := by
    funext d
    match d with
    | ⟨0, _⟩ => exact Fin.ext (by show ((a.val * 64 + g.val) * 16 + k.val) / 1024 = a.val; omega)
    | ⟨1, _⟩ => exact Fin.ext (by show ((a.val * 64 + g.val) * 16 + k.val) % 1024 = 16 * g.val + k.val; omega)
  rw [h, v1_at]

/-- The reference's result is the feature array. -/
theorem ref_feat (x0 : (⟨Cert.ReferenceIdeal.S512x1024, .f32⟩ : BufTy).Contents (Elt Ideal))
    (x1 : (⟨Cert.ReferenceIdeal.S1024x64x16, .f32⟩ : BufTy).Contents (Elt Ideal)) :
    Cert.ReferenceIdeal.Read.val_main_v12 (F := Ideal) x0 x1 = Cert.L1.featArr x0 x1 := by
  funext i
  obtain ⟨a, g, rfl⟩ : ∃ (a : Fin 512) (g : Fin 64), i = ix2 a g := ⟨i 0, i 1, eq_ix2 i⟩
  rw [val_main_v12_apply]
  show _ = Cert.L1.feat x0 x1 a g
  unfold Cert.L1.feat
  rw [val_main_cst_0_apply, Ideal.ofBits_def, Ideal.ofBits_zero_f32, zero_add]
  refine Finset.sum_congr rfl fun b _ => ?_
  rw [val_main_v11_apply, val_main_v10_apply]
  show Ideal.exp (-(val_main_v9 (F := Ideal) x0 x1 (idx_main_v12 (ix2 a g) b))) = _
  refine congrArg (fun z => Ideal.exp (-z)) ?_
  rw [val_main_v9_apply, val_main_cst_apply, Ideal.ofBits_def, Ideal.ofBits_zero_f32, zero_add]
  unfold Cert.L1.dist
  refine Finset.sum_congr rfl fun k _ => ?_
  rw [val_main_v8_apply, val_main_v7_apply]
  show Cert.L1.eabs (val_main_v5 (F := Ideal) x0 x1 (idx_main_v9 (idx_main_v12 (ix2 a g) b) k)
    - val_main_v6 (F := Ideal) x0 x1 (idx_main_v9 (idx_main_v12 (ix2 a g) b) k)) = _
  rw [eabs_sub_comm, val_main_v5_apply, val_main_v3_apply, val_main_v6_apply, val_main_v4_apply]
  have h5 : idx_main_v3 (idx_main_v5 (idx_main_v9 (idx_main_v12 (ix2 a g) b) k)) = ix3 b g k := by
    funext d
    match d with
    | ⟨0, _⟩ => rfl
    | ⟨1, _⟩ => rfl
    | ⟨2, _⟩ => rfl
  have h6 : idx_main_v4 (idx_main_v6 (idx_main_v9 (idx_main_v12 (ix2 a g) b) k)) = ix3 a g k := by
    funext d
    match d with
    | ⟨0, _⟩ => rfl
    | ⟨1, _⟩ => rfl
    | ⟨2, _⟩ => rfl
  rw [h5, h6, v2_at, v2_at]

end Cert.L1.Ref

end
-- ==== Proof.Tail.lean ====
/-
  The accumulator over eight blocks of 64 rows sums all 512 rows, and the slice of the first 64 lanes read at an index.
-/
import proofs.«177701_j45286135169752_2_alg».proof.Proof.RefFeat
import proofs.«177701_j45286135169752_2_alg».proof.Proof.Gen.KernelIdeal
import Idealize.ShloMosaic.Lib.Pipeline.Value

noncomputable section

open scoped BigOperators

namespace Cert.L1.Tail

open Idealize.ShloMosaic Idealize.ShloMosaic.ValueIdx

/-- Zero plus the first block's sum, then one block's sum added per step: after the eighth block the accumulator is
    the sum over all 512 rows. -/
theorem acc_rows (e : Fin 512 → EReal) (acc : ℕ → EReal)
    (h0 : acc 0 = 0 + ∑ b : Fin 64, e ⟨64 * 0 + b.val, by omega⟩)
    (hs : ∀ j : ℕ, (hj : j + 1 < 8) → acc (j + 1) = acc j + ∑ b : Fin 64, e ⟨64 * (j + 1) + b.val, by omega⟩) :
    acc 7 = ∑ b : Fin 512, e b := by
  have h1 := hs 0 (by omega)
  have h2 := hs 1 (by omega)
  have h3 := hs 2 (by omega)
  have h4 := hs 3 (by omega)
  have h5 := hs 4 (by omega)
  have h6 := hs 5 (by omega)
  have h7 := hs 6 (by omega)
  rw [h7, h6, h5, h4, h3, h2, h1, h0, zero_add, ← Cert.L1.Ref.sum_rows e, Fin.sum_univ_eight]
  rfl

/-- The slice `[0:512, 0:64]` of a 512 × 128 array read at `[a, g]` is the array at `[a, g]`. -/
theorem slice_at_of (h : Cert.KernelIdeal.S512x128.Slices ![0, 0] Cert.KernelIdeal.S512x64)
    (v : Vec Ideal Cert.KernelIdeal.S512x128 .f32) (a : Fin 512) (g : Fin 64) :
    extractStridedSlice Cert.KernelIdeal.S512x64 ![0, 0] v h (ix2 a g)
      = v (ix2 a (⟨g.val, by omega⟩ : Fin 128)) :=
  extractStridedSlice_apply ![0, 0] v h (ix2 a g) (ix2 a (⟨g.val, by omega⟩ : Fin 128)) (fun d => match d with
    | ⟨0, _⟩ => by show a.val = 0 + a.val; omega
    | ⟨1, _⟩ => by show g.val = 0 + g.val; omega)

/-- The same with the slice fact taken from the program's facts. -/
theorem slice_at [Cert.KernelIdeal.Facts₀] (v : Vec Ideal Cert.KernelIdeal.S512x128 .f32) (a : Fin 512) (g : Fin 64) :
    extractStridedSlice Cert.KernelIdeal.S512x64 ![0, 0] v Cert.KernelIdeal.Facts₀.slices_S512x128_S512x64_0_0 (ix2 a g)
      = v (ix2 a (⟨g.val, by omega⟩ : Fin 128)) :=
  slice_at_of _ v a g

end Cert.L1.Tail

end
-- ==== Proof.KI.Glue.lean ====
/-
  The core's buffers at the boundaries of the program, read as the mathematics of the specification.

  * The first host stretch flattens the weight `T : 1024 × 64 × 16` to `1024 × 1024` (entry `(q, c)` is
    `T[q, c / 16, c % 16]`, the row-major position being the same) and rounds it, which changes no extended real;
    it leaves the first argument as launched.
  * The three host stretches between the two kernel regions write neither the projection nor the first argument, and
    they leave the 0/1 group matrix in its buffer.
  * The last host stretch slices the first 64 lanes of the distance region's result and joins them to the first
    argument.
  * Given what the distance region leaves — at `(a, o)` the sum over rows `b` of `exp (−∑_c |M[a,c] − M[b,c]| · G[c,o])`
    of the projection `M` and the group matrix `G` it was handed —, the sum against column `g < 64` of `G` keeps the
    sixteen columns of group `g`, so the entry is the feature of the specification.
-/
import proofs.«177701_j45286135169752_2_alg».proof.Proof.KI.RunW
import proofs.«177701_j45286135169752_2_alg».proof.Proof.KI.Val0
import proofs.«177701_j45286135169752_2_alg».proof.Proof.HostG
import proofs.«177701_j45286135169752_2_alg».proof.Proof.Tail
import proofs.«177701_j45286135169752_2_alg».proof.Proof.Spec
import Idealize.ShloMosaic.Lib.StableHlo.Run
import Idealize.ShloMosaic.Lib.Pipeline.Value

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe

variable (m : (ℓ : Loc nD τ sig) → Buf (Elt Ideal) ℓ) (ρ : Dev nD → PrngReg)

/-! ## Buffers no stretch in between writes -/

/-- The first host stretch leaves the first argument as launched. -/
theorem W1_x (c : Dev nD) : W1 m ρ c (Proc.devRef .tc main_arg0) = m ((c : Thread nD τ).loc main_arg0) :=
  (StableHlo.after_of_writes_sub hostOps0 _ hostOps0_writes (by decide : main_arg0 ∉ hostOps0_W)).trans rfl

/-- The first argument is still as launched when the distance region has run. -/
theorem W6_x (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide : main_arg0 ∉ hostOps1_2_W)
    _ = W3 m ρ c (Proc.devRef .tc main_arg0) := StableHlo.after_of_writes_sub hostOps1_1 _ hostOps1_1_writes (by decide : main_arg0 ∉ hostOps1_1_W)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_x m ρ c

/-- The projection region's result is still in its buffer when the distance region starts. -/
theorem W5_proj (c : Dev nD) : W5 m ρ c (Proc.devRef .tc main_v2) = (dat0 (F := Ideal) (V1 m ρ) c).arrAt 2 cfg0.N :=
  calc W5 m ρ c (Proc.devRef .tc main_v2)
    _ = W4 m ρ c (Proc.devRef .tc main_v2) := StableHlo.after_of_writes_sub hostOps1_2 _ hostOps1_2_writes (by decide : main_v2 ∉ hostOps1_2_W)
    _ = W3 m ρ c (Proc.devRef .tc main_v2) := StableHlo.after_of_writes_sub hostOps1_1 _ hostOps1_1_writes (by decide : main_v2 ∉ hostOps1_1_W)
    _ = W2 m ρ c (Proc.devRef .tc main_v2) := StableHlo.after_of_writes_sub hostOps1 _ hostOps1_writes (by decide : main_v2 ∉ hostOps1_W)
    _ = (dat0 (F := Ideal) (V1 m ρ) c).arrAt 2 cfg0.N := W2_arr m ρ c 2

/-- The three host stretches between the regions leave the group matrix in its buffer. -/
theorem W5_gmat (c : Dev nD) : (W5 m ρ c (Proc.devRef .tc main_v13) : S1024x128.Idx → EReal) = Cert.L1.G.gmat :=
  Cert.L1.G.host_gmat (W2 m ρ c)

/-! ## The two outer host stretches as operations -/

/-- The first host stretch leaves the flat weight: entry `(q, c)` is `T[q, c / 16, c % 16]`. -/
theorem W1_weight (c : Dev nD) :
    (W1 m ρ c (Proc.devRef .tc main_v1) : S1024x1024.Idx → EReal)
      = fun i => Cert.L1.tflat (m ((c : Thread nD τ).loc main_arg1)) (i 0) (i 1) := by
  have e : (W1 m ρ c (Proc.devRef .tc main_v1) : S1024x1024.Idx → EReal)
      = (truncf (F := Ideal) .bf16 (shapeCast S1024x1024 (m ((c : Thread nD τ).loc main_arg1) : FVec Ideal S1024x64x16 .f32)
          shapeCasts_S1024x64x16_S1024x1024) bitsLt_bf16_f32 : FVec Ideal S1024x1024 .bf16) := by
    show StableHlo.after (hostOps0 (F := Ideal)) (W0 m ρ c) (Proc.devRef .tc main_v1) = _
    simp only [hostOps0]
    after_results
    rfl
  rw [e]
  funext i
  obtain ⟨q, cc, rfl⟩ : ∃ (q cc : Fin 1024), i = ix2 q cc := ⟨i 0, i 1, eq_ix2 i⟩
  rw [truncf_apply]
  refine (shapeCast_apply _ shapeCasts_S1024x64x16_S1024x1024 (ix2 q cc)
    (ix3 q (⟨cc.val / 16, by omega⟩ : Fin 64) (⟨cc.val % 16, by omega⟩ : Fin 16)) ?_).trans rfl
  rw [Shape.rowMajor_val_three, Shape.rowMajor_val_two]
  show (q.val * 64 + cc.val / 16) * 16 + cc.val % 16 = q.val * 1024 + cc.val
  omega

/-- The last host stretch joins the first argument and the first 64 lanes of the distance region's result. -/
theorem W7_result (c : Dev nD) :
    W7 m ρ c (Proc.devRef .tc main_v16)
      = concatenate S512x1088 1
          [⟨S512x1024, (W6 m ρ c (Proc.devRef .tc main_arg0) : S512x1024.Idx → EReal)⟩,
           ⟨S512x64, extractStridedSlice S512x64 ![0, 0] (W6 m ρ c (Proc.devRef .tc main_v14) : S512x128.Idx → EReal)
              slices_S512x128_S512x64_0_0⟩]
          concatenates_S512x1024_S512x64_S512x1088_d1 := by
  show StableHlo.after (hostOps2 (F := Ideal)) (W6 m ρ c) (Proc.devRef .tc main_v16) = _
  simp only [hostOps2]
  after_results

/-! ## The kernel side's result -/

/-- What the distance region computes from a projection `M` and a matrix `Gm`: at `(a, o)` the sum over the rows
    `b` of `exp (−∑_c |M[a, c] − M[b, c]| · Gm[c, o])`. -/
def distArr (M : S512x1024.Idx → EReal) (Gm : S1024x128.Idx → EReal) : S512x128.Idx → EReal :=
  fun i => ∑ b : Fin 512, Ideal.exp (-(∑ cc : Fin 1024,
    Cert.L1.eabs (M (ix2 (i 0) cc) - M (ix2 b cc)) * Gm (ix2 cc (i 1))))

/-- Against the group matrix, at a lane `g < 64`, that is the specification's feature: column `g` of the group
    matrix keeps the sixteen columns of group `g`. -/
theorem distArr_gmat (x : S512x1024.Idx → EReal) (T : S1024x64x16.Idx → EReal) (M : S512x1024.Idx → EReal)
    (hM : ∀ (a : Fin 512) (cc : Fin 1024), M (ix2 a cc) = Cert.L1.proj x T a cc) (a : Fin 512) (g : Fin 64) :
    distArr M Cert.L1.G.gmat (ix2 a (⟨g.val, by omega⟩ : Fin 128)) = Cert.L1.feat x T a g := by
  show (∑ b : Fin 512, Ideal.exp (-(∑ cc : Fin 1024,
      Cert.L1.eabs (M (ix2 a cc) - M (ix2 b cc)) * Cert.L1.G.gmat (ix2 cc (⟨g.val, by omega⟩ : Fin 128)))))
    = ∑ b : Fin 512, Ideal.exp (-(Cert.L1.dist x T a b g))
  refine Finset.sum_congr rfl fun b _ => ?_
  refine congrArg (fun z : EReal => Ideal.exp (-z)) ?_
  simp only [hM]
  exact Cert.L1.G.group_sum (fun cc => Cert.L1.eabs (Cert.L1.proj x T a cc - Cert.L1.proj x T b cc)) g

/-- The projection the distance region is handed, at an index: the specification's projection of the launched arguments. -/
theorem V5_proj_apply (c : Dev nD) (a : Fin 512) (cc : Fin 1024) :
    (V5 m ρ c main_v2 : S512x1024.Idx → EReal) (ix2 a cc)
      = Cert.L1.proj (m ((c : Thread nD τ).loc main_arg0)) (m ((c : Thread nD τ).loc main_arg1)) a cc := by
  have e : (V5 m ρ c main_v2 : S512x1024.Idx → EReal)
      = projArr (m ((c : Thread nD τ).loc main_arg0))
          (fun i => Cert.L1.tflat (m ((c : Thread nD τ).loc main_arg1)) (i 0) (i 1)) := by
    refine (W5_proj m ρ c).trans ((region0_value (V1 m ρ) c).trans ?_)
    show projArr (W1 m ρ c (Proc.devRef .tc main_arg0)) (W1 m ρ c (Proc.devRef .tc main_v1) : S1024x1024.Idx → EReal) = _
    rw [W1_x m ρ c, W1_weight m ρ c]
    rfl
  rw [e]
  rfl

/-- The whole kernel side: given what the distance region leaves in its result array, the program's result is the
    first argument joined to the specification's features. -/
theorem kernel_value (c : Dev nD)
    (h1 : ((dat1 (F := Ideal) (V5 m ρ) c).arrAt 3 cfg1.N : S512x128.Idx → EReal)
      = distArr (V5 m ρ c main_v2) (V5 m ρ c main_v13)) :
    W7 m ρ c (Proc.devRef .tc main_v16)
      = concatenate S512x1088 1
          [⟨S512x1024, (m ((c : Thread nD τ).loc main_arg0) : S512x1024.Idx → EReal)⟩,
           ⟨S512x64, Cert.L1.featArr (m ((c : Thread nD τ).loc main_arg0)) (m ((c : Thread nD τ).loc main_arg1))⟩]
          concatenates_S512x1024_S512x64_S512x1088_d1 := by
  have h6 : (W6 m ρ c (Proc.devRef .tc main_v14) : S512x128.Idx → EReal)
      = distArr (V5 m ρ c main_v2) Cert.L1.G.gmat :=
    ((W6_out m ρ c).trans h1).trans (congrArg (distArr (V5 m ρ c main_v2)) (W5_gmat m ρ c))
  have e2 : extractStridedSlice S512x64 ![0, 0] (W6 m ρ c (Proc.devRef .tc main_v14) : S512x128.Idx → EReal)
      slices_S512x128_S512x64_0_0
        = Cert.L1.featArr (m ((c : Thread nD τ).loc main_arg0)) (m ((c : Thread nD τ).loc main_arg1)) := by
    funext i
    obtain ⟨a, g, rfl⟩ : ∃ (a : Fin 512) (g : Fin 64), i = ix2 a g := ⟨i 0, i 1, eq_ix2 i⟩
    rw [Cert.L1.Tail.slice_at_of]
    exact (congrFun h6 (ix2 a (⟨g.val, by omega⟩ : Fin 128))).trans
      (distArr_gmat (m ((c : Thread nD τ).loc main_arg0)) (m ((c : Thread nD τ).loc main_arg1)) _
        (V5_proj_apply m ρ c) a g)
  rw [W7_result m ρ c, W6_x m ρ c, e2]

end Cert.KernelIdeal.HandVal

end
-- ==== Proof.KI.Val1a.lean ====
/-
  The second kernel region's accumulator, read as values: each of the body's three courses leaves in the scratch the
  scratch it found (zero at the first point of a row of eight) plus the point's partial sums, and at the last point
  of a row of eight the output's buffer receives a copy of it.
-/
import proofs.«177701_j45286135169752_2_alg».proof.Proof.KI.R1c
import proofs.«177701_j45286135169752_2_alg».proof.Proof.KerPay
import Idealize.ShloMosaic.Lib.Pipeline.Value
import Idealize.ShloMosaic.Lib.Tactic

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe Idealize.SL.Sem
open Idealize.ShloMosaic.Tactic

section pieces
variable {F : FTy → Type} [FloatOps F]

theorem hz_val1a : (![0, 0] : Fin 2 → Nat) = fun _ => 0 := funext fun a => by fin_cases a <;> rfl

/-- A middle point leaves in the scratch what it found plus the point's partial sums. -/
theorem sout1_B_eq (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : ¬cond1_1 i) (x0 : Vec F S128x1024 .bf16) (x1 : Vec F S64x1024 .bf16) (x2 : Vec F S1024x128 .bf16) (xs : Vec F S128x128 .f32) :
    sout1_B c i arg2 harg2 arg3 harg3 arg4 harg4 arg5 harg5 arg6 harg6 hc0 hc1 x0 x1 x2 xs = k1_pay2 x0 x1 x2 xs := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  rw [View.canon_unit_zero hz_val1a]
  simp only [View.readAt_eq_ld, harg2.read_unread, harg3.read_unread, harg4.read_unread, harg6.read_unread,
    View.ld_unit_zero (S := S128x1024) hz_val1a, View.ld_unit_zero (S := S64x1024) hz_val1a, View.ld_unit_zero (S := S1024x128) hz_val1a,
    View.ld_unit_zero (S := S128x128) hz_val1a]

/-- The first point of a row of eight clears the scratch, reads the zero block back, and leaves it plus the point's
    partial sums. -/
theorem sout1_A_eq (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : cond1_0 i) (hc1 : ¬cond1_1 i) (x0 : Vec F S128x1024 .bf16) (x1 : Vec F S64x1024 .bf16) (x2 : Vec F S1024x128 .bf16) :
    sout1_A c i arg2 harg2 arg3 harg3 arg4 harg4 arg5 harg5 arg6 harg6 hc0 hc1 x0 x1 x2 = k1_pay2 x0 x1 x2 k1_pay1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S128x128) hz_val1a, View.readCov_unit_zero (S := S128x128) _ hz_val1a]
  simp only [View.readAt_eq_ld, harg2.read_unread, harg3.read_unread, harg4.read_unread,
    View.ld_unit_zero (S := S128x1024) hz_val1a, View.ld_unit_zero (S := S64x1024) hz_val1a, View.ld_unit_zero (S := S1024x128) hz_val1a]

/-- The last point of a row of eight leaves in the scratch what it found plus the point's partial sums, -/
theorem sout1_C_eq (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) :
    sout1_C c i arg2 harg2 arg3 harg3 arg4 harg4 arg5 harg5 arg6 harg6 hc0 hc1 x0 x1 x2 xs = k1_pay2 x0 x1 x2 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_unit_zero hz_val1a]
  simp only [View.readAt_eq_ld, harg2.read_unread, harg3.read_unread, harg4.read_unread, harg6.read_unread,
    View.ld_unit_zero (S := S128x1024) hz_val1a, View.ld_unit_zero (S := S64x1024) hz_val1a, View.ld_unit_zero (S := S1024x128) hz_val1a,
    View.ld_unit_zero (S := S128x128) hz_val1a]

/-- and copies that into the output's buffer. -/
theorem out1_C_eq (c : Dev nD) (i : grid1.Coords) (arg2 : Memref sig .tc .vmem S128x1024 .bf16) (harg2 : arg2.IsWhole) (arg3 : Memref sig .tc .vmem S64x1024 .bf16) (harg3 : arg3.IsWhole) (arg4 : Memref sig .tc .vmem S1024x128 .bf16) (harg4 : arg4.IsWhole) (arg5 : Memref sig .tc .vmem S128x128 .f32) (harg5 : arg5.IsWhole) (arg6 : Memref sig .tc .vmem S128x128 .f32) (harg6 : arg6.IsWhole) (hc0 : ¬cond1_0 i) (hc1 : cond1_1 i) (x0 : Vec F S128x1024 .bf16) (x1 : Vec F S64x1024 .bf16) (x2 : Vec F S1024x128 .bf16) (xs : Vec F S128x128 .f32) :
    out1_C c i arg2 harg2 arg3 harg3 arg4 harg4 arg5 harg5 arg6 harg6 hc0 hc1 x0 x1 x2 xs = k1_pay2 x0 x1 x2 xs := by
  unfold out1_C
  rw [View.read_writes_eq_canon _ _ _ (cover1_C c i arg2 harg2 arg3 harg3 arg4 harg4 arg5 harg5 arg6 harg6 hc0 hc1 x0 x1 x2 xs)]
  unfold kernelRun1_C
  dsimp only
  sl_unfold_words
  rw [View.canon_unit_zero hz_val1a, View.readCov_unit_zero (S := S128x128) _ hz_val1a]
  simp only [View.readAt_eq_ld, harg2.read_unread, harg3.read_unread, harg4.read_unread, harg6.read_unread,
    View.ld_unit_zero (S := S128x1024) hz_val1a, View.ld_unit_zero (S := S64x1024) hz_val1a, View.ld_unit_zero (S := S1024x128) hz_val1a,
    View.ld_unit_zero (S := S128x128) hz_val1a]

end pieces

variable (V : (c : Dev nD) → (b : Ref sig .tc) → Buf (Elt Ideal) ((c : Thread nD τ).loc b))

/-- One point's partial sums from the three input blocks: at (p, o), the sum over the 64 rows b of the point's row
    block of exp (−∑ cc, |x0[p, cc] − x1[b, cc]| · x2[cc, o]). -/
def part (x0 : Vec Ideal S128x1024 .bf16) (x1 : Vec Ideal S64x1024 .bf16) (x2 : Vec Ideal S1024x128 .bf16) (p o : Fin 128) : EReal :=
  ∑ b : Fin 64, Ideal.exp (-(∑ cc : Fin 1024, Cert.L1.eabs (x0 (ix2 p cc) - x1 (ix2 b cc)) * x2 (ix2 cc o)))

/-- At the first point of a row of eight the scratch ends at zero plus the point's partial sums. -/
theorem accAt_first (c : Dev nD) (t : Fin cfg1.N) (h0 : t.val % 8 = 0) (p o : Fin 128) :
    accAt (F := Ideal) V c t.val t.isLt (ix2 p o) = 0 + part (iblk1 V c 0 t) (iblk1 V c 1 t) (iblk1 V c 2 t) p o := by
  refine (congrFun (accAt_A V c t h0) (ix2 p o)).trans ?_
  unfold stepA
  refine (congrFun (sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => not7_of_0 h0 ((hcond1_1 t).mp h)) (iblk1 V c 0 t) (iblk1 V c 1 t) (iblk1 V c 2 t)) (ix2 p o)).trans ?_
  refine (Cert.L1.Pay.pay_acc (iblk1 V c 0 t) (iblk1 V c 1 t) (iblk1 V c 2 t) (k1_pay1 (F := Ideal)) p o).trans ?_
  refine congrArg (· + part (iblk1 V c 0 t) (iblk1 V c 1 t) (iblk1 V c 2 t) p o) ?_
  exact Cert.L1.Pay.pay_zero (ix2 p o)

/-- At every other point the scratch ends at what the point before left plus the point's partial sums. -/
theorem accAt_next (c : Dev nD) (t : Fin cfg1.N) (h0 : ¬t.val % 8 = 0) (p o : Fin 128) :
    accAt (F := Ideal) V c t.val t.isLt (ix2 p o) = accAt (F := Ideal) V c (t.val - 1) (Nat.lt_of_le_of_lt (Nat.sub_le _ _) t.isLt) (ix2 p o) + part (iblk1 V c 0 t) (iblk1 V c 1 t) (iblk1 V c 2 t) p o := by
  by_cases h1 : t.val % 8 = 7
  · refine (congrFun (accAt_C V c t h1) (ix2 p o)).trans ?_
    unfold stepC
    refine (congrFun (sout1_C_eq (F := Ideal) c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) (accAt V c (t.val - 1) (Nat.lt_of_le_of_lt (Nat.sub_le _ _) t.isLt))) (ix2 p o)).trans ?_
    exact Cert.L1.Pay.pay_acc (iblk1 V c 0 t) (iblk1 V c 1 t) (iblk1 V c 2 t) (accAt V c (t.val - 1) (Nat.lt_of_le_of_lt (Nat.sub_le _ _) t.isLt)) p o
  · refine (congrFun (accAt_B V c t h0 h1) (ix2 p o)).trans ?_
    unfold stepB
    refine (congrFun (sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt V c (t.val - 1) (Nat.lt_of_le_of_lt (Nat.sub_le _ _) t.isLt))) (ix2 p o)).trans ?_
    exact Cert.L1.Pay.pay_acc (iblk1 V c 0 t) (iblk1 V c 1 t) (iblk1 V c 2 t) (accAt V c (t.val - 1) (Nat.lt_of_le_of_lt (Nat.sub_le _ _) t.isLt)) p o

/-- At the last point of a row of eight the output's buffer receives the scratch. -/
theorem outAt_last (c : Dev nD) (t : Fin cfg1.N) (h1 : t.val % 8 = 7) :
    outAt (F := Ideal) V c t = accAt (F := Ideal) V c t.val t.isLt := by
  refine Eq.trans ?_ (accAt_C V c t h1).symm
  unfold outAt
  rw [dif_pos h1]
  unfold outC stepC
  exact (out1_C_eq (F := Ideal) c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) (accAt V c (t.val - 1) (Nat.lt_of_le_of_lt (Nat.sub_le _ _) t.isLt))).trans
    (sout1_C_eq (F := Ideal) c (grid1.coords t) (ms1_0 t) (hs1_0 t) (ms1_1 t) (hs1_1 t) (ms1_2 t) (hs1_2 t) (ms1_3 t) (hs1_3 t) scM1 (Memref.isWhole_whole _) (fun h => not0_of_7 h1 ((hcond1_0 t).mp h)) ((hcond1_1 t).mpr h1) (iblk1 V c 0 t) (iblk1 V c 1 t) (iblk1 V c 2 t) (accAt V c (t.val - 1) (Nat.lt_of_le_of_lt (Nat.sub_le _ _) t.isLt))).symm

end Cert.KernelIdeal.HandVal

end
-- ==== Proof.KI.Val1.lean ====
/-
  The second kernel region's result, as one function of the arrays it reads.

  The grid is 4 × 8; point t has coordinates (t / 8, t % 8). It reads rows 128 (t / 8) … of the projection (the rows
  the features are computed for), rows 64 (t % 8) … of the same projection (the rows summed over at this point) and
  the whole group matrix, and adds to the scratch, at (p, o), the summands of those 64 rows. Along a row of eight points
  the scratch starts from zero and gathers the eight blocks of 64 rows, so after the eighth point it holds the sum over
  all 512 rows; that point copies it into rows 128 (t / 8) … of the result. The four row blocks tile the 512 rows.
-/
import proofs.«177701_j45286135169752_2_alg».proof.Proof.KI.Val1a
import proofs.«177701_j45286135169752_2_alg».proof.Proof.Tail
import proofs.«177701_j45286135169752_2_alg».proof.Proof.RefFeat
import Idealize.ShloMosaic.Lib.Pipeline.Value

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The features over all 128 lanes: entry (a, o) is the sum over the 512 rows b of exp (−∑ cc, |M[a, cc] − M[b, cc]| · G[cc, o]). -/
def featArr128 (M : S512x1024.Idx → EReal) (Gm : S1024x128.Idx → EReal) : S512x128.Idx → EReal :=
  fun i => ∑ b : Fin 512, Ideal.exp (-(∑ cc : Fin 1024, Cert.L1.eabs (M (ix2 (i 0) cc) - M (ix2 b cc)) * Gm (ix2 cc (i 1))))

/-- The block indices over the grid: point t has coordinates (t / 8, t % 8); the first window and the result take the
    row block t / 8, the second window the row block t % 8, the third is one block. -/
theorem idxFacts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Window 0's block at point t is rows 128 (t / 8) … of the projection. -/
theorem blk1_0_at (c : Dev nD) (t : Fin cfg1.N) (p : Fin 128) (cc : Fin 1024) (r : Fin 512) (hr : r.val = 128 * (t.val / 8) + p.val) :
    (iblk1 V c 0 t : Vec Ideal S128x1024 .bf16) (ix2 p cc) = (V c main_v2 : S512x1024.Idx → EReal) (ix2 r cc) := by
  obtain ⟨e0, e1, -, -, -, -, -, -⟩ := idxFacts1 t
  unfold iblk1
  rw [View.read_apply]
  show V c main_v2 _ = V c main_v2 _
  congr 1
  funext a
  apply Fin.ext
  match a with
  | ⟨0, _⟩ => show win1_0.index t (0 : Fin 2) * 128 + 1 * p.val = r.val; rw [e0, hr]; omega
  | ⟨1, _⟩ => show win1_0.index t (1 : Fin 2) * 1024 + 1 * cc.val = cc.val; rw [e1]; omega

/-- Window 1's block at point t is rows 64 (t % 8) … of the projection. -/
theorem blk1_1_at (c : Dev nD) (t : Fin cfg1.N) (b : Fin 64) (cc : Fin 1024) (r : Fin 512) (hr : r.val = 64 * (t.val % 8) + b.val) :
    (iblk1 V c 1 t : Vec Ideal S64x1024 .bf16) (ix2 b cc) = (V c main_v2 : S512x1024.Idx → EReal) (ix2 r cc) := by
  obtain ⟨-, -, e0, e1, -, -, -, -⟩ := idxFacts1 t
  unfold iblk1
  rw [View.read_apply]
  show V c main_v2 _ = V c main_v2 _
  congr 1
  funext a
  apply Fin.ext
  match a with
  | ⟨0, _⟩ => show win1_1.index t (0 : Fin 2) * 64 + 1 * b.val = r.val; rw [e0, hr]; omega
  | ⟨1, _⟩ => show win1_1.index t (1 : Fin 2) * 1024 + 1 * cc.val = cc.val; rw [e1]; omega

/-- Window 2's block at every point is the whole group matrix. -/
theorem blk1_2_at (c : Dev nD) (t : Fin cfg1.N) (cc : Fin 1024) (o : Fin 128) :
    (iblk1 V c 2 t : Vec Ideal S1024x128 .bf16) (ix2 cc o) = (V c main_v13 : S1024x128.Idx → EReal) (ix2 cc o) := by
  obtain ⟨-, -, -, -, e0, e1, -, -⟩ := idxFacts1 t
  unfold iblk1
  rw [View.read_apply]
  show V c main_v13 _ = V c main_v13 _
  congr 1
  funext a
  apply Fin.ext
  match a with
  | ⟨0, _⟩ => show win1_2.index t (0 : Fin 2) * 1024 + 1 * cc.val = cc.val; rw [e0]; omega
  | ⟨1, _⟩ => show win1_2.index t (1 : Fin 2) * 128 + 1 * o.val = o.val; rw [e1]; omega

/-- The summand of the feature at row r and lane o: for a row b, exp (−∑ cc, |M[r, cc] − M[b, cc]| · G[cc, o]). -/
def expRow (M : S512x1024.Idx → EReal) (Gm : S1024x128.Idx → EReal) (r : Fin 512) (o : Fin 128) (b : Fin 512) : EReal :=
  Ideal.exp (-(∑ cc : Fin 1024, Cert.L1.eabs (M (ix2 r cc) - M (ix2 b cc)) * Gm (ix2 cc o)))

/-- One point's partial sums, of the arrays: the summands of the 64 rows of the point's row block. -/
theorem part_at (c : Dev nD) (t : Fin cfg1.N) (p o : Fin 128) (r : Fin 512) (hr : r.val = 128 * (t.val / 8) + p.val)
    (j : ℕ) (hj : j < 8) (hjt : t.val % 8 = j) :
    part (iblk1 V c 0 t) (iblk1 V c 1 t) (iblk1 V c 2 t) p o
      = ∑ b : Fin 64, expRow (V c main_v2) (V c main_v13) r o ⟨64 * j + b.val, by omega⟩ := by
  unfold part expRow
  refine Finset.sum_congr rfl fun b _ => ?_
  refine congrArg (fun z => Ideal.exp (-z)) ?_
  refine Finset.sum_congr rfl fun cc _ => ?_
  rw [blk1_0_at V c t p cc r hr, blk1_1_at V c t b cc ⟨64 * j + b.val, by omega⟩ (by rw [hjt]), blk1_2_at V c t cc o]

/-- The scratch after point n, as a total function of n. -/
def accT (c : Dev nD) (n : ℕ) : Vec Ideal S128x128 .f32 :=
  if h : n < cfg1.N then accAt (F := Ideal) V c n h else fun _ => 0

theorem accT_eq (c : Dev nD) (n : ℕ) (h : n < cfg1.N) : accT V c n = accAt (F := Ideal) V c n h := dif_pos h

/-- The first point of row block g: zero plus the summands of the rows 0 … 63. -/
theorem row_first (c : Dev nD) (g : ℕ) (hg : g < 4) (p o : Fin 128) (r : Fin 512) (hr : r.val = 128 * g + p.val) :
    accT V c (8 * g + 0) (ix2 p o) = 0 + ∑ b : Fin 64, expRow (V c main_v2) (V c main_v13) r o ⟨64 * 0 + b.val, by omega⟩ := by
  have hN : cfg1.N = 32 := N_1
  have hn : 8 * g + 0 < cfg1.N := by rw [hN]; omega
  rw [accT_eq V c _ hn]
  refine (accAt_first V c ⟨8 * g + 0, hn⟩ (by show (8 * g + 0) % 8 = 0; omega) p o).trans ?_
  refine congrArg (0 + ·) ?_
  exact part_at V c ⟨8 * g + 0, hn⟩ p o r (by show r.val = 128 * ((8 * g + 0) / 8) + p.val; omega) 0 (by omega)
    (by show (8 * g + 0) % 8 = 0; omega)

/-- A later point of row block g adds the summands of its 64 rows. -/
theorem row_next (c : Dev nD) (g : ℕ) (hg : g < 4) (p o : Fin 128) (r : Fin 512) (hr : r.val = 128 * g + p.val)
    (j : ℕ) (hj : j + 1 < 8) :
    accT V c (8 * g + (j + 1)) (ix2 p o)
      = accT V c (8 * g + j) (ix2 p o) + ∑ b : Fin 64, expRow (V c main_v2) (V c main_v13) r o ⟨64 * (j + 1) + b.val, by omega⟩ := by
  have hN : cfg1.N = 32 := N_1
  have hn : 8 * g + (j + 1) < cfg1.N := by rw [hN]; omega
  have hn' : 8 * g + j < cfg1.N := by rw [hN]; omega
  rw [accT_eq V c _ hn, accT_eq V c _ hn']
  refine (accAt_next V c ⟨8 * g + (j + 1), hn⟩ (by show ¬(8 * g + (j + 1)) % 8 = 0; omega) p o).trans ?_
  have hp := part_at V c ⟨8 * g + (j + 1), hn⟩ p o r (by show r.val = 128 * ((8 * g + (j + 1)) / 8) + p.val; omega) (j + 1) hj
    (by show (8 * g + (j + 1)) % 8 = j + 1; omega)
  rw [hp]
  rfl

/-- After the eighth point of row block g the scratch holds, at (p, o), the sum over all 512 rows. -/
theorem row_last (c : Dev nD) (g : ℕ) (hg : g < 4) (p o : Fin 128) (r : Fin 512) (hr : r.val = 128 * g + p.val) :
    accT V c (8 * g + 7) (ix2 p o) = ∑ b : Fin 512, expRow (V c main_v2) (V c main_v13) r o b :=
  Cert.L1.Tail.acc_rows (expRow (V c main_v2) (V c main_v13) r o) (fun j => accT V c (8 * g + j) (ix2 p o))
    (row_first V c g hg p o r hr) (fun j hj => row_next V c g hg p o r hr j hj)

/-- The scratch at the last point of a row of eight, at one element, against the features at the element's place in
    the result array. -/
theorem point1_eq (c : Dev nD) (t : Fin cfg1.N) (h7 : t.val % 8 = 7) (j : S128x128.Idx) (i : S512x128.Idx)
    (hi0 : (i 0).val = 128 * (t.val / 8) + (j 0).val) (hi1 : (i 1).val = (j 1).val) :
    accAt (F := Ideal) V c t.val t.isLt j = featArr128 (V c main_v2) (V c main_v13) i := by
  have hN : cfg1.N = 32 := N_1
  have ht : t.val < 32 := lt_of_lt_of_eq t.isLt hN
  have hn : 8 * (t.val / 8) + 7 < cfg1.N := lt_of_lt_of_eq (by omega) hN.symm
  have e1 : (j 1 : Fin 128) = i 1 := Fin.ext hi1.symm
  have hacc : accAt (F := Ideal) V c t.val t.isLt = accT V c (8 * (t.val / 8) + 7) := by
    rw [accT_eq V c _ hn]
    congr 1
    omega
  rw [hacc]
  refine (congrArg (accT V c (8 * (t.val / 8) + 7)) (eq_ix2 j)).trans ?_
  refine (row_last V c (t.val / 8) (by omega) (j 0) (j 1) (i 0) hi0).trans ?_
  unfold featArr128 expRow
  rw [e1]

/-- What a point that writes back writes is its block of the features of the arrays as the region finds them. -/
theorem flushed1_eq (c : Dev nD) (t : Fin cfg1.N) (hf : (cfg1.win 3).flush t = true) :
    (dat1 V c).flushed 3 t
      = ((cfg1.win 3).blk t).view.read (Elt Ideal) (featArr128 (V c main_v2) (V c main_v13)) := by
  have h7 : t.val % 8 = 7 := (flush1_3 t).mp hf
  show (cfg1.win 3).cut (grid1.coords t) ((dat1 V c).after 3 t) = _
  rw [after1_3, outAt_last V c t h7]
  obtain ⟨-, -, -, -, -, -, e0, e1⟩ := idxFacts1 t
  funext j
  show accAt (F := Ideal) V c t.val t.isLt j = featArr128 (V c main_v2) (V c main_v13) (((cfg1.win 3).blk t).view.emb j)
  refine point1_eq V c t h7 j (((cfg1.win 3).blk t).view.emb j) ?_ ?_
  · show win1_3.index t (0 : Fin 2) * 128 + 1 * (j 0).val = 128 * (t.val / 8) + (j 0).val
    rw [e0]; omega
  · show win1_3.index t (1 : Fin 2) * 128 + 1 * (j 1).val = (j 1).val
    rw [e1]; omega

/-- An index of the result array is in point t's block iff each coordinate is in the block's range on its axis. -/
theorem mem_blk1 (t : Fin cfg1.N) (i : S512x128.Idx) :
    i ∈ ((cfg1.win 3).blk t).view.set ↔ ∀ a : Fin 2, win1_3.index t a * S128x128.size a ≤ (i a).val
      ∧ (i a).val < win1_3.index t a * S128x128.size a + S128x128.size a := by
  show i ∈ ((View.whole main_v14).slice (win1_3.rect t)).set ↔ _
  rw [View.set_slice_whole, Rect.mem_set_unit]
  exact Iff.rfl

/-- Row r of the result array is written back by the last point of the row of eight of its row block. -/
theorem cover1 (i : S512x128.Idx) :
    ∃ t : Fin cfg1.N, (cfg1.win 3).flush t = true ∧ i ∈ ((cfg1.win 3).blk t).view.set := by
  have hi0 : (i 0).val < 512 := (i 0).isLt
  have hi1 : (i 1).val < 128 := (i 1).isLt
  have hN : cfg1.N = 32 := N_1
  obtain ⟨t, ht⟩ : ∃ t : Fin cfg1.N, t.val = 8 * ((i 0).val / 128) + 7 :=
    ⟨⟨8 * ((i 0).val / 128) + 7, by rw [hN]; omega⟩, rfl⟩
  obtain ⟨-, -, -, -, -, -, e0, e1⟩ := idxFacts1 t
  refine ⟨t, (flush1_3 t).mpr (by rw [ht]; omega), ?_⟩
  rw [mem_blk1]
  intro a
  match a with
  | ⟨0, _⟩ =>
    show win1_3.index t (0 : Fin 2) * 128 ≤ (i 0).val ∧ (i 0).val < win1_3.index t (0 : Fin 2) * 128 + 128
    rw [e0, ht]; omega
  | ⟨1, _⟩ =>
    show win1_3.index t (1 : Fin 2) * 128 ≤ (i 1).val ∧ (i 1).val < win1_3.index t (1 : Fin 2) * 128 + 128
    rw [e1]; omega

/-- After the second kernel region the result array holds the features, over all 128 lanes, of the projection and the
    group matrix as the region found them. -/
theorem region1_value (c : Dev nD) :
    ((dat1 (F := Ideal) V c).arrAt 3 cfg1.N : S512x128.Idx → EReal) = featArr128 (V c main_v2) (V c main_v13) :=
  (dat1 V c).arrAt_eq_of_cover 3 (featArr128 (V c main_v2) (V c main_v13)) (fun t hf => flushed1_eq V c t hf) cover1

end Cert.KernelIdeal.HandVal

end
-- ==== Proof.Bridge.lean ====
/-
  The two idealized programs end with equal results.

  The kernel's program ends with its result array at the join, along the second axis, of the first argument with the
  512 × 64 block `feat` of the specification: its first region leaves the projection `x · Tflat`; its second region,
  contracting the absolute differences of projected rows against the 0/1 group matrix and summing exponentials over
  all 512 rows, eight blocks of 64 at a time, leaves an array whose first 64 lanes are `feat` (the group matrix keeps,
  in lane `g`, exactly the sixteen columns `16 g + k`); the host then slices those lanes and joins them to the argument.
  The reference's program ends with the same join of the same argument with its own 512 × 64 block, which is `feat`
  too (the absolute value of a difference does not depend on the order of its terms). Both runs keep the arguments.
-/
import proofs.«177701_j45286135169752_2_alg».proof.Proof.KI.RunSeg
import proofs.«177701_j45286135169752_2_alg».proof.Proof.KI.Glue
import proofs.«177701_j45286135169752_2_alg».proof.Proof.KI.Val1
import proofs.«177701_j45286135169752_2_alg».proof.Proof.RefFeat
import proofs.«177701_j45286135169752_2_alg».proof.Proof.Gen.Pre_finite_inputs
import proofs.«177701_j45286135169752_2_alg».proof.Defs

noncomputable section

namespace Cert.Proof.Bridge

open Idealize.ShloMosaic Idealize.ShloMosaic.TcCoe Idealize.SL.Sem
open Cert.KernelIdeal Cert.KernelIdeal.Gen

/-- The idealized kernel's run with its result named: the join of the first argument with the feature block. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = concatenate S512x1088 1 [⟨S512x1024, (m ((c : Thread nD τ).loc main_arg0) : S512x1024.Idx → EReal)⟩, ⟨S512x64, Cert.L1.featArr (m ((c : Thread nD τ).loc main_arg0)) (m ((c : Thread nD τ).loc main_arg1))⟩] concatenates_S512x1024_S512x64_S512x1088_d1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans (Cert.KernelIdeal.HandVal.kernel_value m ρ c (Cert.KernelIdeal.HandVal.region1_value (Cert.KernelIdeal.Hand.V5 m ρ) c)), (h c).2⟩)
    (Cert.KernelIdeal.Hand.run_result (F := Ideal) m ρ)

/-- From memories agreeing on the arguments, the idealized kernel and the idealized reference both run and end with
    equal results, the arguments unchanged. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v13_eq]
  unfold Cert.ReferenceIdeal.Read.val_main_v13
  rw [Cert.L1.Ref.ref_feat, (hagree c).1, (hagree c).2]

end Cert.Proof.Bridge

end
-- ==== Proof.lean ====
/-
  A pairwise-distance feature layer: the kernel against its reference, over the extended reals.

  From `x : 512 × 1024` and a weight `T : 1024 × 64 × 16` both programs form the projection `m = x · Tflat`
  (`Tflat[q, c] = T[q, c / 16, c % 16]`), and for every row `a` and group `g < 64` the feature
  `feat[a, g] = ∑ b, exp (−∑ k < 16, |m[a, 16 g + k] − m[b, 16 g + k]|)`, the sum over all 512 rows `b`; the result is
  `x` joined with `feat` along the second axis (Proof/Spec.lean).

  The kernel does this in two regions. The first is the matrix product, four blocks of 128 rows. The second walks
  a 4 × 8 grid: a block of 128 rows `a` against a block of 64 rows `b`, the absolute differences contracted against a
  0/1 matrix that puts column `c` into lane `c / 16` (lanes 64 … 127 get nothing), exponentials summed over the 64
  rows `b` and accumulated in a scratch buffer over the eight blocks of a row, cleared at the first and copied out at
  the last. The reference writes the same sums directly. Over the extended reals a change of float format is the
  identity, a product with a 0/1 matrix selects, and sums may be regrouped, so the two agree entry by entry; the only
  law used beyond those is that the absolute value of a difference does not depend on the order of its terms.

  The three frames: each program runs to the end, faults nowhere and leaves its arguments as launched. For the
  kernel's two readings this is the run of its seven segments (Proof/K/RunSeg.lean at the word level,
  Proof/KI/RunSeg.lean over the extended reals); for the reference it is its run with the result dropped.
  The idealization rewrote no operation, so `preserves` asks nothing. The algebraic claim is Proof/Bridge.lean.
-/
import proofs.«177701_j45286135169752_2_alg».proof.Defs
import proofs.«177701_j45286135169752_2_alg».proof.Proof.Gen.Kernel
import proofs.«177701_j45286135169752_2_alg».proof.Proof.Gen.KernelIdeal
import proofs.«177701_j45286135169752_2_alg».proof.Proof.Gen.ReferenceIdeal
import proofs.«177701_j45286135169752_2_alg».proof.Proof.Gen.Pre_finite_inputs
import proofs.«177701_j45286135169752_2_alg».proof.Proof.Gen.ReferenceIdeal.Run
import proofs.«177701_j45286135169752_2_alg».proof.Proof.Gen.ReferenceIdeal.Read
import proofs.«177701_j45286135169752_2_alg».proof.Proof.K.RunSeg
import proofs.«177701_j45286135169752_2_alg».proof.Proof.KI.RunSeg
import proofs.«177701_j45286135169752_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Hand.frame m ρ
/-- So does its reading over the extended reals. -/
theorem frame_ki : Cert.frame_KernelIdeal := fun m ρ _ => Cert.KernelIdeal.Hand.frame m ρ
/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
